-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000x128 : Shape := ⟨2, ![640000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg9 : FVec F S128 .f32) (main_arg10 : FVec F S128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x256 .f32) (main_arg7 : FVec F S256 .f32) (main_arg8 : FVec F S256x128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S40000x128 .f32) (main_arg1 : FVec F S640000x128 .f32) (main_arg2 : IVec S2x640000 32) (main_arg3 : IVec S40000 32) (main_arg4 : FVec F S128x128 .f32) (main_arg5 : FVec F S128 .f32) (main_arg6 : FVec F S128x256 .f32) (main_arg7 : FVec F S256 .f32) (main_arg8 : FVec F S256x128 .f32) (main_arg9 : FVec F S128 .f32) (main_arg10 : FVec F S128 .f32) (main_arg11 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S40000x128 : Shape := ⟨2, ![40000, 128]⟩
abbrev S640000x128 : Shape := ⟨2, ![640000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x640000 : Shape := ⟨2, ![1, 640000]⟩
abbrev S640000 : Shape := ⟨1, ![640000]⟩
abbrev S8000x128 : Shape := ⟨2, ![8000, 128]⟩
abbrev S1x128 : Shape := ⟨2, ![1, 128]⟩
abbrev S_ : Shape := ⟨0, ![]⟩
abbrev S640000x1 : Shape := ⟨2, ![640000, 1]⟩
abbrev S5000x128 : Shape := ⟨2, ![5000, 128]⟩
abbrev S5000x256 : Shape := ⟨2, ![5000, 256]⟩
abbrev S1x256 : Shape := ⟨2, ![1, 256]⟩
abbrev S5000 : Shape := ⟨1, ![5000]⟩
abbrev S5000x1 : Shape := ⟨2, ![5000, 1]⟩

abbrev nBuf : Space → Nat
  | .hbm => 35
  | .vmem => 18
  | .smem => 0
  | _ => 0

abbrev bufTy : (tb : Table) → Fin (tcTables nBuf tb) → BufTy
  | .hbm, ⟨0, _⟩ => ⟨S40000x128, .f32⟩
  | .hbm, ⟨1, _⟩ => ⟨S640000x128, .f32⟩
  | .hbm, ⟨2, _⟩ => ⟨S2x640000, .i32⟩
  | .hbm, ⟨3, _⟩ => ⟨S40000, .i32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x128, .f32⟩
  | .hbm, ⟨27, _⟩ => ⟨S_, .f32⟩
  | .hbm, ⟨28, _⟩ => ⟨S640000x128, .f32⟩
  | .hbm, ⟨29, _⟩ => ⟨S640000x128, .f32⟩
  | .hbm, ⟨30, _⟩ => ⟨S_, .f32⟩
  | .hbm, ⟨31, _⟩ => ⟨S40000x128, .f32⟩
  | .hbm, ⟨32, _⟩ => ⟨S640000x1, .i32⟩
  | .hbm, ⟨33, _⟩ => ⟨S40000x128, .f32⟩
  | .hbm, ⟨34, _⟩ => ⟨S40000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S128, .f32⟩
  | .local _ .vmem, ⟨4, _⟩ => ⟨S8000x128, .f32⟩
  | .local _ .vmem, ⟨5, _⟩ => ⟨S8000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x256, .f32⟩
  | .local _ .vmem, ⟨11, _⟩ => ⟨S256, .f32⟩
  | .local _ .vmem, ⟨12, _⟩ => ⟨S256x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_cst : Ref sig .tc := ⟨.hbm, 27, rfl⟩
abbrev main_call0_v0 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  dot_S8000x128_S128x128_S8000x128_1_0_0_1_n_n_wf : DotDims.WF S8000x128 S128x128 S8000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S640000x128.size a
  hwx0_3 : ∀ i : grid0.Coords, EltTy.bits .f32 = 32 ∨ (Rect.block (s := S640000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S40000x128.size a
  hwx1_8 : ∀ i : grid1.Coords, EltTy.bits .f32 = 32 ∨ (Rect.block (s := S40000x128) S5000x128.size (cc1_transform_8 i) (hinb1_8 i)).WholeWords (EltTy.packing .f32)

variable [Facts₀]

def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg1) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v17) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S40000x128 : Shape := ⟨2, ![40000, 128]⟩
abbrev S640000x128 : Shape := ⟨2, ![640000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S640000x1 : Shape := ⟨2, ![640000, 1]⟩
abbrev S40000x256 : Shape := ⟨2, ![40000, 256]⟩
abbrev S1x256 : Shape := ⟨2, ![1, 256]⟩
abbrev S40000x1 : Shape := ⟨2, ![40000, 1]⟩

abbrev nBuf : Space → Nat
  | .hbm => 79
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000x128, .f32⟩
  | .hbm, ⟨2, _⟩ => ⟨S2x640000, .i32⟩
  | .hbm, ⟨3, _⟩ => ⟨S40000, .i32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S640000x128, .f32⟩
  | .hbm, ⟨17, _⟩ => ⟨S1x128, .f32⟩
  | .hbm, ⟨18, _⟩ => ⟨S640000x128, .f32⟩
  | .hbm, ⟨19, _⟩ => ⟨S640000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S640000x128, .f32⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S40000x128, .f32⟩
  | .hbm, ⟨35, _⟩ => ⟨S640000x1, .i32⟩
  | .hbm, ⟨36, _⟩ => ⟨S40000x128, .f32⟩
  | .hbm, ⟨37, _⟩ => ⟨S40000x128, .f32⟩
  | .hbm, ⟨38, _⟩ => ⟨S40000x256, .f32⟩
  | .hbm, ⟨39, _⟩ => ⟨S1x256, .f32⟩
  | .hbm, ⟨40, _⟩ => ⟨S40000x256, .f32⟩
  | .hbm, ⟨41, _⟩ => ⟨S40000x256, .f32⟩
  | .hbm, ⟨42, _⟩ => ⟨S_, .f32⟩
  | .hbm, ⟨43, _⟩ => ⟨S40000x256, .f32⟩
  | .hbm, ⟨44, _⟩ => ⟨S40000x256, .f32⟩
  | .hbm, ⟨45, _⟩ => ⟨S40000x128, .f32⟩
  | .hbm, ⟨46, _⟩ => ⟨S1x128, .f32⟩
  | .hbm, ⟨47, _⟩ => ⟨S40000x128, .f32⟩
  | .hbm, ⟨48, _⟩ => ⟨S40000x128, .f32⟩
  | .hbm, ⟨49, _⟩ => ⟨S_, .f32⟩
  | .hbm, ⟨50, _⟩ => ⟨S40000, .f32⟩
  | .hbm, ⟨51, _⟩ => ⟨S40000x1, .f32⟩
  | .hbm, ⟨52, _⟩ => ⟨S_, .f32⟩
  | .hbm, ⟨53, _⟩ => ⟨S40000x1, .f32⟩
  | .hbm, ⟨54, _⟩ => ⟨S40000x1, .f32⟩
  | .hbm, ⟨55, _⟩ => ⟨S40000x128, .f32⟩
  | .hbm, ⟨56, _⟩ => ⟨S40000x128, .f32⟩
  | .hbm, ⟨57, _⟩ => ⟨S40000x128, .f32⟩
  | .hbm, ⟨58, _⟩ => ⟨S_, .f32⟩
  | .hbm, ⟨59, _⟩ => ⟨S40000, .f32⟩
  | .hbm, ⟨60, _⟩ => ⟨S40000x1, .f32⟩
  | .hbm, ⟨61, _⟩ => ⟨S_, .f32⟩
  | .hbm, ⟨62, _⟩ => ⟨S40000x1, .f32⟩
  | .hbm, ⟨63, _⟩ => ⟨S40000x1, .f32⟩
  | .hbm, ⟨64, _⟩ => ⟨S40000x128, .f32⟩
  | .hbm, ⟨65, _⟩ => ⟨S40000x128, .f32⟩
  | .hbm, ⟨66, _⟩ => ⟨S_, .f32⟩
  | .hbm, ⟨67, _⟩ => ⟨S40000x1, .f32⟩
  | .hbm, ⟨68, _⟩ => ⟨S40000x1, .f32⟩
  | .hbm, ⟨69, _⟩ => ⟨S40000x1, .f32⟩
  | .hbm, ⟨70, _⟩ => ⟨S40000x128, .f32⟩
  | .hbm, ⟨71, _⟩ => ⟨S40000x128, .f32⟩
  | .hbm, ⟨72, _⟩ => ⟨S1x128, .f32⟩
  | .hbm, ⟨73, _⟩ => ⟨S40000x128, .f32⟩
  | .hbm, ⟨74, _⟩ => ⟨S40000x128, .f32⟩
  | .hbm, ⟨75, _⟩ => ⟨S1x128, .f32⟩
  | .hbm, ⟨76, _⟩ => ⟨S40000x128, .f32⟩
  | .hbm, ⟨77, _⟩ => ⟨S40000x128, .f32⟩
  | .hbm, ⟨78, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call1_cst : Ref sig .tc := ⟨.hbm, 42, rfl⟩
abbrev main_call1_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_1 : Ref sig .tc := ⟨.hbm, 49, rfl⟩
abbrev main_v30 : Ref sig .tc := ⟨.hbm, 50, rfl⟩
abbrev main_v31 : Ref sig .tc := ⟨.hbm, 51, rfl⟩
abbrev main_cst_2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_3 : Ref sig .tc := ⟨.hbm, 58, rfl⟩
abbrev main_v37 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S40000x256 : S_.BroadcastsInDim S40000x256 (![] : Fin 0 → Fin S40000x256.rank)
  bcast_S1x128_S40000x128_0_1 : S1x128.BroadcastsInDim S40000x128 (![0, 1] : Fin 2 → Fin S40000x128.rank)
  reducesTo_S40000x128_S40000_d1 : S40000x128.ReducesTo [1] S40000
  h_S_ : 0 < S_.numel
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x128_0_1 : S40000x1.BroadcastsInDim S40000x128 (![0, 1] : Fin 2 → Fin S40000x128.rank)
  dot_S640000x128_S128x128_S640000x128_1_0_0_1_n_n_wf : DotDims.WF S640000x128 S128x128 S640000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x256_S40000x256_1_0_0_1_n_n_wf : DotDims.WF S40000x128 S128x256 S40000x256 [1] [0] [0] [1] [] []
  dot_S40000x256_S256x128_S40000x128_1_0_0_1_n_n_wf : DotDims.WF S40000x256 S256x128 S40000x128 [1] [0] [0] [1] [] []

variable [Facts₀]

def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf

class Facts : Prop extends Facts₀ where

variable [Facts]
-- ==== Proof.ResultRun.lean ====
/-
  The tiled program's run with its result named.

  The program is six segments: a stretch of index operations, the edge region, three stretches of index and
  message operations, the node region. Running them from any memory leaves every buffer that outlives a region at
  the contents obtained by folding the segments over the launch memory: a stretch of host operations applies its
  operations in order, a region replaces each of its arrays by what its write-backs leave and keeps every other
  buffer. The frame claim reads only the argument arrays off that final memory; here the result array is read off
  it as well, so that its contents are known as the last fold.
-/
import proofs.«165945_j53601191854192_2_alg».proof.Proof.Gen.KernelIdeal.Frame

set_option maxRecDepth 16384

noncomputable section

namespace Cert.Gin.Tiled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in the type of a metavariable
set_option backward.isDefEq.respectTransparency.types false in
/-- Every weakly fair execution of the tiled program terminates without a fault; the result array ends at the last
    fold `W6` read at the result buffer, and the argument arrays end as launched. -/
theorem run_result : θ_run defs (onTc (τ := τ) (main (F := F))) ⟨m, fun _ => 0, ρ⟩ (fun r => ∀ c : Dev nD,
      r.2.mem ((c.tc : Thread nD τ).loc main_v17) = W6 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v17 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.Gin.Tiled

end
-- ==== Proof.RowSpec.lean ====
/-
  The function both programs compute, one row at a time, over the extended reals.

  A graph layer: every edge carries a 128-vector that is sent through a linear map (`edgeRow`); the messages are
  gathered, rectified and summed into the nodes by a chain of index operations that this file does not look into;
  and every node's 128-vector `x`, with the sum `a` of its incoming messages, goes through
      h = x + a,   z = max(h·W₁ + b₁, 0)·W₂ + b₂,   out = (z − mean z)·rsqrt(var z + ε)·g + β + x
  (`nodeRow`). The mean and the variance are taken over the 128 entries of the row and are quotients by the
  literal 128; ε is the single-precision word nearest to 1e-5. Both literals, and the zero that the rectifier compares
  with, are kept as their binary words: the same word stands on both sides of every equation, so its value is never
  needed.

  Each row of the result depends on the same row of the inputs only; that is what lets a tiled program, which sees
  5000 (or 8000) rows at a time, and a whole-array program be compared row by row.
-/
import Idealize.ShloMosaic.PureOps.Ideal
import Idealize.ShloMosaic.Lib.ValueIdx

noncomputable section

namespace Cert.Gin

open Idealize.ShloMosaic Idealize.ShloMosaic.ValueIdx
open scoped BigOperators

/-- Entry `c` of `row · W + b`: the linear map applied to one edge's vector. -/
def edgeRow (row : Fin 128 → EReal) (w : FVec Ideal ⟨2, ![128, 128]⟩ .f32) (b : FVec Ideal ⟨1, ![128]⟩ .f32)
    (c : Fin 128) : EReal :=
  (∑ k : Fin 128, row k * w (ix2 k c)) + b (ix1 c)

/-- The linear map applied to every edge: row `r` of the result is `edgeRow` of row `r` of the operand. -/
def edgeLin (eh : FVec Ideal ⟨2, ![640000, 128]⟩ .f32) (w : FVec Ideal ⟨2, ![128, 128]⟩ .f32)
    (b : FVec Ideal ⟨1, ![128]⟩ .f32) : FVec Ideal ⟨2, ![640000, 128]⟩ .f32 :=
  fun j => edgeRow (fun k => eh (ix2 (j 0) k)) w b (j 1)

/-- Entry `j` of the hidden layer of one node: `max(h · W₁ + b₁, 0)`. -/
def hiddenRow (h : Fin 128 → EReal) (w1 : FVec Ideal ⟨2, ![128, 256]⟩ .f32) (b1 : FVec Ideal ⟨1, ![256]⟩ .f32)
    (j : Fin 256) : EReal :=
  max ((∑ k : Fin 128, h k * w1 (ix2 k j)) + b1 (ix1 j)) (Ideal.ofBits .f32 0x00000000#32)

/-- Entry `c` of the two-layer map of one node: `hidden · W₂ + b₂`. -/
def mlpRow (h : Fin 128 → EReal) (w1 : FVec Ideal ⟨2, ![128, 256]⟩ .f32) (b1 : FVec Ideal ⟨1, ![256]⟩ .f32)
    (w2 : FVec Ideal ⟨2, ![256, 128]⟩ .f32) (b2 : FVec Ideal ⟨1, ![128]⟩ .f32) (c : Fin 128) : EReal :=
  (∑ j : Fin 256, hiddenRow h w1 b1 j * w2 (ix2 j c)) + b2 (ix1 c)

/-- The mean of a row of 128 entries: their sum divided by the literal 128. -/
def rowMean (z : Fin 128 → EReal) : EReal :=
  Ideal.div (∑ c : Fin 128, z c) (Ideal.ofBits .f32 0x43000000#32)

/-- Entry `c` of the normalised row: centred, scaled by the reciprocal root of the variance plus ε, then the
    affine map `· g + β`. -/
def normRow (z : Fin 128 → EReal) (g bb : FVec Ideal ⟨1, ![128]⟩ .f32) (c : Fin 128) : EReal :=
  (z c - rowMean z)
      * Ideal.rsqrt (rowMean (fun c' => (z c' - rowMean z) * (z c' - rowMean z)) + Ideal.ofBits .f32 0x3727C5AC#32)
      * g (ix1 c)
    + bb (ix1 c)

/-- Entry `c` of a node's new vector, from its old vector `x` and the sum `a` of its incoming messages. -/
def nodeRow (x a : Fin 128 → EReal) (w1 : FVec Ideal ⟨2, ![128, 256]⟩ .f32) (b1 : FVec Ideal ⟨1, ![256]⟩ .f32)
    (w2 : FVec Ideal ⟨2, ![256, 128]⟩ .f32) (b2 g bb : FVec Ideal ⟨1, ![128]⟩ .f32) (c : Fin 128) : EReal :=
  normRow (mlpRow (fun k => x k + a k) w1 b1 w2 b2) g bb c + x c

/-- Every node's new vector: row `r` of the result is `nodeRow` of rows `r` of the two operands. -/
def nodeOut (nh aggr : FVec Ideal ⟨2, ![40000, 128]⟩ .f32) (w1 : FVec Ideal ⟨2, ![128, 256]⟩ .f32)
    (b1 : FVec Ideal ⟨1, ![256]⟩ .f32) (w2 : FVec Ideal ⟨2, ![256, 128]⟩ .f32)
    (b2 g bb : FVec Ideal ⟨1, ![128]⟩ .f32) : FVec Ideal ⟨2, ![40000, 128]⟩ .f32 :=
  fun j => nodeRow (fun k => nh (ix2 (j 0) k)) (fun k => aggr (ix2 (j 0) k)) w1 b1 w2 b2 g bb (j 1)

end Cert.Gin

end
-- ==== Proof.Messages.lean ====
/-
  From the edges' transformed vectors to the nodes' sums of incoming messages.

  The pair of index rows (source and destination node of every edge) is split in two; a negative source index is
  moved up by the number of nodes; the source node's vector is gathered for every edge, the edge's transformed vector
  is added and the sum is rectified; and the rectified messages are summed into their destination nodes, starting
  from the zero array. Both programs perform exactly these index operations on the same arguments, so the chain is
  named here once, as a function of the node array, the index pair and the edges' transformed vectors, and nothing
  later looks inside it: two programs that feed it equal edge vectors get equal sums.

  `whole` is the complete layer: the node map of RowSpec applied to the node array and those sums.
-/
import proofs.«165945_j53601191854192_2_alg».proof.KernelIdeal
import proofs.«165945_j53601191854192_2_alg».proof.Proof.RowSpec

noncomputable section

namespace Cert.Gin

open Idealize.ShloMosaic Cert.KernelIdeal

variable {F : FTy → Type} [FloatOps F] [Facts₀]
open Facts₀

/-- The source row of the index pair, as a vector over the edges. -/
def srcIdx (x2 : (⟨S2x640000, .i32⟩ : BufTy).Contents (Elt F)) : (⟨S640000, .i32⟩ : BufTy).Contents (Elt F) :=
  shapeCast S640000 (extractStridedSlice S1x640000 ![0, 0] x2 slices_S2x640000_S1x640000_0_0) shapeCasts_S1x640000_S640000

/-- The destination row of the index pair, as a vector over the edges. -/
def dstIdx (x2 : (⟨S2x640000, .i32⟩ : BufTy).Contents (Elt F)) : (⟨S640000, .i32⟩ : BufTy).Contents (Elt F) :=
  shapeCast S640000 (extractStridedSlice S1x640000 ![1, 0] x2 slices_S2x640000_S1x640000_1_0) shapeCasts_S1x640000_S640000

/-- The sums of incoming messages, from the node array `x0`, the two index vectors and the edges' transformed
    vectors `e`: gather at the (wrapped) source, add, rectify, sum into the destination. -/
def gatherSum (x0 : (⟨S40000x128, .f32⟩ : BufTy).Contents (Elt F)) (src dst : (⟨S640000, .i32⟩ : BufTy).Contents (Elt F))
    (e : (⟨S640000x128, .f32⟩ : BufTy).Contents (Elt F)) : (⟨S40000x128, .f32⟩ : BufTy).Contents (Elt F) :=
  Host.scatterAdd scatter_S40000x128_S640000x1_S640000x128_1_0_0_1
    (broadcastInDim S40000x128 ![] bcast_S_S40000x128 (constant S_ .f32 0x00000000#32))
    (broadcastInDim S640000x1 ![0] bcast_S640000_S640000x1_0 dst)
    (maximumf
      (addf
        (Host.gather gather_S40000x128_S640000x1_S640000x128_1_0_n_n_0_1_1128 x0
          (broadcastInDim S640000x1 ![0] bcast_S640000_S640000x1_0
            (select (cmpi .slt src (broadcastInDim S640000 ![] bcast_S_S640000 (constantI S_ 32 0#32)))
              (addi src (broadcastInDim S640000 ![] bcast_S_S640000 (constantI S_ 32 40000#32))) src)))
        e)
      (broadcastInDim S640000x128 ![] bcast_S_S640000x128 (constant S_ .f32 0x00000000#32)))

/-- The same, from the index pair as the programs receive it. -/
def messages (x0 : (⟨S40000x128, .f32⟩ : BufTy).Contents (Elt F)) (x2 : (⟨S2x640000, .i32⟩ : BufTy).Contents (Elt F))
    (e : (⟨S640000x128, .f32⟩ : BufTy).Contents (Elt F)) : (⟨S40000x128, .f32⟩ : BufTy).Contents (Elt F) :=
  gatherSum x0 (srcIdx x2) (dstIdx x2) e

/-- The whole layer over the extended reals, as one function of the arguments. -/
def whole (x0 : (⟨S40000x128, .f32⟩ : BufTy).Contents (Elt Ideal)) (x1 : (⟨S640000x128, .f32⟩ : BufTy).Contents (Elt Ideal))
    (x2 : (⟨S2x640000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S256, .f32⟩ : BufTy).Contents (Elt Ideal)) (x8 : (⟨S256x128, .f32⟩ : BufTy).Contents (Elt Ideal))
    (x9 x10 x11 : (⟨S128, .f32⟩ : BufTy).Contents (Elt Ideal)) : (⟨S40000x128, .f32⟩ : BufTy).Contents (Elt Ideal) :=
  nodeOut x0 (messages (F := Ideal) x0 x2 (edgeLin x1 x4 x5)) x6 x7 x8 x9 x10 x11

end Cert.Gin

end
-- ==== Proof.LastFold.lean ====
/-
  The tiled program's result, read off the folds of its six segments.

  The node region's output array is covered by its eight blocks, so it is the node map of the region's two blocked
  inputs and six parameters as the region finds them. Walking the folds backwards: the parameters and the node array
  are arguments, which no segment writes; the message sums are what the three host stretches between the regions
  leave, the chain `gatherSum` of the node array, the two index vectors and the edge region's output array; the
  index vectors are what the first stretch cuts out of the index pair; and the edge region's output array is covered
  by its eighty blocks, the edge map of three arguments. Put together, the result is `whole` of the arguments.

  The two "covered by its blocks" facts are taken as hypotheses here and supplied where the pieces are assembled.
-/
import proofs.«165945_j53601191854192_2_alg».proof.Proof.Gen.KernelIdeal.Frame
import proofs.«165945_j53601191854192_2_alg».proof.Proof.Messages

set_option maxRecDepth 16384

noncomputable section

namespace Cert.Gin.Tiled

open Cert.KernelIdeal Cert.KernelIdeal.Gen
open Idealize.ShloMosaic Idealize.ShloMosaic.TcCoe Idealize.SL.Sem Idealize.ShloMosaic.StableHlo

section AnyFloat
variable {F : FTy → Type} [FloatOps F]

/-- The three stretches of host operations between the regions, folded over any contents `X`, leave the message
    sums at `gatherSum` of the node array, the two index vectors and the edge array as `X` holds them. -/
theorem gather_fold (X : Valuation τ sig (Elt F)) :
    StableHlo.after hostOps1_2 (StableHlo.after hostOps1_1 (StableHlo.after hostOps1 X)) (Proc.devRef .tc main_v16)
      = Cert.Gin.gatherSum (F := F) (X (Proc.devRef .tc main_arg0)) (X (Proc.devRef .tc main_v1))
          (X (Proc.devRef .tc main_v3)) (X (Proc.devRef .tc main_v4)) := by
  simp only [hostOps1, hostOps1_1, hostOps1_2]
  after_results
  rfl

variable (m : (ℓ : Loc nD τ sig) → Buf (Elt F) ℓ) (ρ : Dev nD → PrngReg) (c : Dev nD)

/-- The first stretch cuts the source row out of the index pair … -/
theorem src_fold : W1 m ρ c (Proc.devRef .tc main_v1) = Cert.Gin.srcIdx (F := F) (m ((c : Thread nD τ).loc main_arg2)) := by
  show StableHlo.after hostOps0 (W0 m ρ c) (Proc.devRef .tc main_v1) = _
  simp only [hostOps0]
  after_results
  rfl

/-- … and the destination row. -/
theorem dst_fold : W1 m ρ c (Proc.devRef .tc main_v3) = Cert.Gin.dstIdx (F := F) (m ((c : Thread nD τ).loc main_arg2)) := by
  show StableHlo.after hostOps0 (W0 m ρ c) (Proc.devRef .tc main_v3) = _
  simp only [hostOps0]
  after_results
  rfl

/-- The first stretch writes no argument. -/
theorem arg_fold (b : Ref sig .tc) (hb : b ∉ [main_v0, main_v1, main_v2, main_v3]) :
    W1 m ρ c (Proc.devRef .tc b) = m ((c : Thread nD τ).loc b) :=
  StableHlo.after_of_writes_sub (W := [main_v0, main_v1, main_v2, main_v3]) hostOps0 (W0 m ρ c)
    (by simp only [hostOps0, List.Forall, StableHlo.unary_writes, StableHlo.reshape_writes]; decide) hb

end AnyFloat

section Exact
variable (m : (ℓ : Loc nD τ sig) → Buf (Elt Ideal) ℓ) (ρ : Dev nD → PrngReg) (c : Dev nD)

/-- The result array after the run is `whole` of the arguments' launch contents, given that each region's output
    array is the region's row map of its inputs as the region finds them. -/
theorem result_fold
    (hedge : ∀ (V : (c : Dev nD) → (b : Ref sig .tc) → Buf (Elt Ideal) ((c : Thread nD τ).loc b)) (c : Dev nD),
      (dat0 (F := Ideal) V c).arrAt 3 cfg0.N = Cert.Gin.edgeLin (V c main_arg1) (V c main_arg4) (V c main_arg5))
    (hnode : ∀ (V : (c : Dev nD) → (b : Ref sig .tc) → Buf (Elt Ideal) ((c : Thread nD τ).loc b)) (c : Dev nD),
      (dat1 (F := Ideal) V c).arrAt 8 cfg1.N
        = Cert.Gin.nodeOut (V c main_arg0) (V c main_v16) (V c main_arg6) (V c main_arg7) (V c main_arg8) (V c main_arg9)
            (V c main_arg10) (V c main_arg11)) :
    W6 (F := Ideal) m ρ c (Proc.devRef .tc main_v17)
      = Cert.Gin.whole (m ((c : Thread nD τ).loc main_arg0)) (m ((c : Thread nD τ).loc main_arg1)) (m ((c : Thread nD τ).loc main_arg2)) (m ((c : Thread nD τ).loc main_arg4))
          (m ((c : Thread nD τ).loc main_arg5)) (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  -- the node region's inputs that are arguments: as launched
  have a_main_arg0 : V5 m ρ c main_arg0 = m ((c : Thread nD τ).loc main_arg0) :=
    ((W6_arr m ρ c 0).trans (((dat1 (V5 m ρ) c).arrAt_in 0 rfl _).trans (A_eq1 (V5 m ρ) c 0))).symm.trans (W6_main_arg0 m ρ c)
  have a_main_arg6 : V5 m ρ c main_arg6 = m ((c : Thread nD τ).loc main_arg6) :=
    ((W6_arr m ρ c 2).trans (((dat1 (V5 m ρ) c).arrAt_in 2 rfl _).trans (A_eq1 (V5 m ρ) c 2))).symm.trans (W6_main_arg6 m ρ c)
  have a_main_arg7 : V5 m ρ c main_arg7 = m ((c : Thread nD τ).loc main_arg7) :=
    ((W6_arr m ρ c 3).trans (((dat1 (V5 m ρ) c).arrAt_in 3 rfl _).trans (A_eq1 (V5 m ρ) c 3))).symm.trans (W6_main_arg7 m ρ c)
  have a_main_arg8 : V5 m ρ c main_arg8 = m ((c : Thread nD τ).loc main_arg8) :=
    ((W6_arr m ρ c 4).trans (((dat1 (V5 m ρ) c).arrAt_in 4 rfl _).trans (A_eq1 (V5 m ρ) c 4))).symm.trans (W6_main_arg8 m ρ c)
  have a_main_arg9 : V5 m ρ c main_arg9 = m ((c : Thread nD τ).loc main_arg9) :=
    ((W6_arr m ρ c 5).trans (((dat1 (V5 m ρ) c).arrAt_in 5 rfl _).trans (A_eq1 (V5 m ρ) c 5))).symm.trans (W6_main_arg9 m ρ c)
  have a_main_arg10 : V5 m ρ c main_arg10 = m ((c : Thread nD τ).loc main_arg10) :=
    ((W6_arr m ρ c 6).trans (((dat1 (V5 m ρ) c).arrAt_in 6 rfl _).trans (A_eq1 (V5 m ρ) c 6))).symm.trans (W6_main_arg10 m ρ c)
  have a_main_arg11 : V5 m ρ c main_arg11 = m ((c : Thread nD τ).loc main_arg11) :=
    ((W6_arr m ρ c 7).trans (((dat1 (V5 m ρ) c).arrAt_in 7 rfl _).trans (A_eq1 (V5 m ρ) c 7))).symm.trans (W6_main_arg11 m ρ c)
  -- the contents the host stretches between the regions start from
  have w0 : W2 m ρ c (Proc.devRef .tc main_arg0) = m ((c : Thread nD τ).loc main_arg0) :=
    (W2_of_ne m ρ c main_arg0 (by decide)).trans (arg_fold m ρ c main_arg0 (by decide))
  have w1 : W2 m ρ c (Proc.devRef .tc main_v1) = Cert.Gin.srcIdx (m ((c : Thread nD τ).loc main_arg2)) :=
    (W2_of_ne m ρ c main_v1 (by decide)).trans (src_fold m ρ c)
  have w3 : W2 m ρ c (Proc.devRef .tc main_v3) = Cert.Gin.dstIdx (m ((c : Thread nD τ).loc main_arg2)) :=
    (W2_of_ne m ρ c main_v3 (by decide)).trans (dst_fold m ρ c)
  have v1 : V1 m ρ c main_arg1 = m ((c : Thread nD τ).loc main_arg1) := arg_fold m ρ c main_arg1 (by decide)
  have v4 : V1 m ρ c main_arg4 = m ((c : Thread nD τ).loc main_arg4) := arg_fold m ρ c main_arg4 (by decide)
  have v5 : V1 m ρ c main_arg5 = m ((c : Thread nD τ).loc main_arg5) := arg_fold m ρ c main_arg5 (by decide)
  have w4 : W2 m ρ c (Proc.devRef .tc main_v4)
      = Cert.Gin.edgeLin (m ((c : Thread nD τ).loc main_arg1)) (m ((c : Thread nD τ).loc main_arg4)) (m ((c : Thread nD τ).loc main_arg5)) := by
    refine (W2_arr m ρ c 3).trans ((hedge (V1 m ρ) c).trans ?_)
    rw [v1, v4, v5]
  -- the message sums as the node region finds them
  have e16 : V5 m ρ c main_v16
      = Cert.Gin.gatherSum (m ((c : Thread nD τ).loc main_arg0)) (Cert.Gin.srcIdx (m ((c : Thread nD τ).loc main_arg2))) (Cert.Gin.dstIdx (m ((c : Thread nD τ).loc main_arg2)))
          (Cert.Gin.edgeLin (m ((c : Thread nD τ).loc main_arg1)) (m ((c : Thread nD τ).loc main_arg4)) (m ((c : Thread nD τ).loc main_arg5))) := by
    refine (gather_fold (W2 m ρ c)).trans ?_
    rw [w0, w1, w3, w4]
  refine (W6_arr m ρ c 8).trans ((hnode (V5 m ρ) c).trans ?_)
  rw [a_main_arg0, a_main_arg6, a_main_arg7, a_main_arg8, a_main_arg9, a_main_arg10, a_main_arg11, e16]
  rfl

end Exact

end Cert.Gin.Tiled

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.EdgeBlock.lean ====
/-
  One block of the edge stage, read entry by entry.

  A block is 8000 consecutive rows of the edge array, each a 128-vector. The stage multiplies the block by the
  128 x 128 weight matrix into a zero accumulator and adds the bias vector, spread over the rows. Over the
  extended reals the change of float format before the product is the identity, and the product into the zero
  accumulator is the plain finite sum over the shared axis, so entry (p, c) of what the stage leaves is the inner
  product of row p of the block with column c of the weights, plus entry c of the bias: the linear map of one edge's
  vector. Only row p of the block enters.
-/
import proofs.«165945_j53601191854192_2_alg».proof.Proof.Gen.KernelIdeal.Frame
import proofs.«165945_j53601191854192_2_alg».proof.Proof.RowSpec
import proofs.«165945_j53601191854192_2_alg».proof.Proof.LibPlainMatmul
import Idealize.ShloMosaic.Lib.ValueLayout
import Idealize.ShloMosaic.Lib.Pipeline.Value

noncomputable section

namespace Cert.Gin.Tiled

open Cert.KernelIdeal Cert.KernelIdeal.Gen Idealize.ShloMosaic Idealize.ShloMosaic.ValueIdx
open scoped BigOperators

/-- The zero offsets of a rank-2 access, as a constant function. -/
theorem zeros2 : (![0, 0] : Fin 2 → Nat) = fun _ => 0 := funext fun a => by fin_cases a <;> rfl

/-- The zero offset of a rank-1 access, as a constant function. -/
theorem zeros1 : (![0] : Fin 1 → Nat) = fun _ => 0 := funext fun a => by fin_cases a <;> rfl

/-- The bias vector, given a unit leading axis and then spread over the 8000 rows, reads at (p, c) its entry c. -/
theorem bias_spread (b : FVec Ideal S128 .f32) (p : Fin 8000) (c : Fin 128) :
    broadcastTo S8000x128 (shapeCast S1x128 b shapeCasts_S128_S1x128) broadcasts_S1x128_S8000x128 (ix2 p c) = b (ix1 c) :=
  (broadcastTo_1b_ab_apply _ broadcasts_S1x128_S8000x128 p c).trans
    (shapeCast_a_1a_apply b shapeCasts_S128_S1x128 (0 : Fin 1) c)

/-- The product of the block with the weights into the zero accumulator reads at (p, c) the inner product of row p
    with column c. -/
theorem block_product (l : FVec Ideal S8000x128 .bf16) (r : FVec Ideal S128x128 .bf16) (p : Fin 8000) (c : Fin 128) :
    matmul dot_S8000x128_S128x128_S8000x128_1_0_0_1_n_n none l r (constant (F := Ideal) S8000x128 .f32 0x00000000#32) (ix2 p c)
      = ∑ k : Fin 128, l (ix2 p k) * r (ix2 k c) :=
  Cert.LibPlainMatmul.matmul_zero_plain dot_S8000x128_S128x128_S8000x128_1_0_0_1_n_n_wf l r p c

/-- Entry (p, c) of the stage's arithmetic on a block: the linear map of row p. -/
theorem edge_payload (v0 : Vec Ideal S8000x128 .f32) (v2 : Vec Ideal S128x128 .f32) (v5 : Vec Ideal S128 .f32)
    (p : Fin 8000) (c : Fin 128) :
    k0_pay1 (F := Ideal) v0 v2 v5 (ix2 p c) = Cert.Gin.edgeRow (fun k => v0 (ix2 p k)) v2 v5 c := by
  unfold k0_pay1 Cert.Gin.edgeRow
  refine (addf_apply _ _ (ix2 p c)).trans ?_
  refine congrArg₂ (· + ·) ?_ (bias_spread v5 p c)
  exact block_product _ _ p c

/-- Entry (p, c) of what the stage leaves in the output block, from the three input blocks: the linear map of
    row p of the first. -/
theorem edge_block (x0 : Vec Ideal S8000x128 .f32) (x1 : Vec Ideal S128x128 .f32) (x2 : Vec Ideal S128 .f32)
    (p : Fin 8000) (c : Fin 128) :
    out0_3 (F := Ideal) x0 x1 x2 (ix2 p c) = Cert.Gin.edgeRow (fun k => x0 (ix2 p k)) x1 x2 c := by
  unfold out0_3
  rw [View.canon_unit_zero zeros2]
  simp only [View.ld_unit_zero (S := S8000x128) zeros2, View.ld_unit_zero (S := S128x128) zeros2,
    View.ld_unit_zero (S := S128) zeros1]
  exact edge_payload x0 x1 x2 p c

end Cert.Gin.Tiled

end
-- ==== Proof.EdgeArray.lean ====
/-
  From blocks to the array, for the edge stage.

  The edge array has 640000 rows of 128 entries and is worked through in 80 blocks of 8000 consecutive rows: the
  point numbered t reads rows 8000 t, ..., 8000 t + 7999 of the edge array together with the whole weight matrix and
  the whole bias vector, and writes the same rows of the result. Entry (p, c) of what it writes is the linear map of
  row p of its input block, which is row 8000 t + p of the edge array; so what point t writes is block t of the
  row-by-row linear map of the whole edge array. Row r of the result lies in the block of point r / 8000, so the 80
  blocks cover the result, and the result array ends as the linear map applied to every row.
-/
import proofs.«165945_j53601191854192_2_alg».proof.Proof.EdgeBlock
import Idealize.ShloMosaic.Lib.Pipeline.Value

noncomputable section

namespace Cert.Gin.Tiled

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- One entry of an output block against the whole arrays: if row p of the first input block is row r of the edge
    array, and the other two blocks are the weights and the bias, then entry (p, q) of the output block is entry
    (r, q) of the linear map of the edge array. -/
theorem edge_entry (eh : FVec Ideal ⟨2, ![640000, 128]⟩ .f32) (w : FVec Ideal ⟨2, ![128, 128]⟩ .f32)
    (b : FVec Ideal ⟨1, ![128]⟩ .f32)
    (x0 : Vec Ideal S8000x128 .f32) (x1 : Vec Ideal S128x128 .f32) (x2 : Vec Ideal S128 .f32)
    (p : Fin 8000) (q : Fin 128) (r : Fin 640000)
    (h0 : ∀ k : Fin 128, x0 (ix2 p k) = eh (ix2 r k)) (h1 : x1 = w) (h2 : x2 = b) :
    out0_3 (F := Ideal) x0 x1 x2 (ix2 p q) = Cert.Gin.edgeLin eh w b (ix2 r q) := by
  subst h1 h2
  rw [edge_block]
  show Cert.Gin.edgeRow _ x1 x2 q = Cert.Gin.edgeRow (fun k => eh (ix2 r k)) x1 x2 q
  exact congrArg (fun row => Cert.Gin.edgeRow row x1 x2 q) (funext h0)

/-- The block indices of the four windows at point t: the edge array's and the result's blocks are numbered by the
    point along the rows, and the weights and the bias are one block each. -/
theorem edge_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of the linear map of the edge array as the region finds it. -/
theorem edge_flushed (c : Dev nD) (t : Fin cfg0.N) :
    (dat0 (F := Ideal) V c).flushed 3 t
      = ((cfg0.win 3).blk t).view.read (Elt Ideal)
          (Cert.Gin.edgeLin (V c main_arg1) (V c main_arg4) (V c main_arg5)) := by
  show (cfg0.win 3).cut (grid0.coords t) ((dat0 V c).after 3 t) = _
  rw [after0_3]
  obtain ⟨e00, e01, e10, e11, e20, e30, e31⟩ := edge_index_facts t
  have ht : t.val < 80 := Nat.lt_of_lt_of_eq t.isLt N_0
  funext j
  obtain ⟨p, q, rfl⟩ : ∃ (p : Fin 8000) (q : Fin 128), j = ix2 p q := ⟨j 0, j 1, eq_ix2 j⟩
  have hr : t.val * 8000 + p.val < 640000 := by have := p.isLt; omega
  show out0_3 (iblk0 V c 0 t) (iblk0 V c 1 t) (iblk0 V c 2 t) (ix2 p q)
    = Cert.Gin.edgeLin (V c main_arg1) (V c main_arg4) (V c main_arg5) (((cfg0.win 3).blk t).view.emb (ix2 p q))
  have hemb : ((cfg0.win 3).blk t).view.emb (ix2 p q) = ix2 (⟨t.val * 8000 + p.val, hr⟩ : Fin 640000) q := by
    funext a; apply Fin.ext
    match a with
    | ⟨0, _⟩ => show win0_3.index t (0 : Fin 2) * 8000 + 1 * p.val = t.val * 8000 + p.val; rw [e30]; omega
    | ⟨1, _⟩ => show win0_3.index t (1 : Fin 2) * 128 + 1 * q.val = q.val; rw [e31]; omega
  rw [hemb]
  have h0 : ∀ k : Fin 128, (iblk0 V c 0 t : Vec Ideal S8000x128 .f32) (ix2 p k)
      = (V c main_arg1 : FVec Ideal ⟨2, ![640000, 128]⟩ .f32) (ix2 (⟨t.val * 8000 + p.val, hr⟩ : Fin 640000) k) := by
    intro k
    show V c main_arg1 (((cfg0.win 0).blk t).view.emb (ix2 p k)) = V c main_arg1 _
    refine congrArg (V c main_arg1) (funext fun a => Fin.ext ?_)
    match a with
    | ⟨0, _⟩ => show win0_0.index t (0 : Fin 2) * 8000 + 1 * p.val = t.val * 8000 + p.val; rw [e00]; omega
    | ⟨1, _⟩ => show win0_0.index t (1 : Fin 2) * 128 + 1 * k.val = k.val; rw [e01]; omega
  have h1 : (iblk0 V c 1 t : Vec Ideal S128x128 .f32) = (V c main_arg4 : FVec Ideal ⟨2, ![128, 128]⟩ .f32) := by
    funext y
    show V c main_arg4 (((cfg0.win 1).blk t).view.emb y) = V c main_arg4 y
    refine congrArg (V c main_arg4) (funext fun a => Fin.ext ?_)
    match a with
    | ⟨0, _⟩ => show win0_1.index t (0 : Fin 2) * 128 + 1 * (y 0).val = (y 0).val; rw [e10]; omega
    | ⟨1, _⟩ => show win0_1.index t (1 : Fin 2) * 128 + 1 * (y 1).val = (y 1).val; rw [e11]; omega
  have h2 : (iblk0 V c 2 t : Vec Ideal S128 .f32) = (V c main_arg5 : FVec Ideal ⟨1, ![128]⟩ .f32) := by
    funext y
    show V c main_arg5 (((cfg0.win 2).blk t).view.emb y) = V c main_arg5 y
    refine congrArg (V c main_arg5) (funext fun a => Fin.ext ?_)
    match a with
    | ⟨0, _⟩ => show win0_2.index t (0 : Fin 1) * 128 + 1 * (y 0).val = (y 0).val; rw [e20]; omega
  exact edge_entry (V c main_arg1) (V c main_arg4) (V c main_arg5) (iblk0 V c 0 t) (iblk0 V c 1 t) (iblk0 V c 2 t)
    p q ⟨t.val * 8000 + p.val, hr⟩ h0 h1 h2

/-- An index of the result array is in point t's block iff each coordinate is in the block's range on its axis. -/
theorem edge_mem_block (t : Fin cfg0.N) (i : S640000x128.Idx) :
    i ∈ ((cfg0.win 3).blk t).view.set ↔ ∀ a : Fin 2, win0_3.index t a * S8000x128.size a ≤ (i a).val
      ∧ (i a).val < win0_3.index t a * S8000x128.size a + S8000x128.size a := by
  show i ∈ ((View.whole main_v4).slice (win0_3.rect t)).set ↔ _
  rw [View.set_slice_whole, Rect.mem_set_unit]
  exact Iff.rfl

/-- Every index of the result array is in the block of the point numbered by its row divided by 8000. -/
theorem edge_cover (i : S640000x128.Idx) :
    ∃ t : Fin cfg0.N, (cfg0.win 3).flush t = true ∧ i ∈ ((cfg0.win 3).blk t).view.set := by
  have hN : grid0.N = 80 := N_0
  have hi0 : (i 0).val < 640000 := (i 0).isLt
  have hi1 : (i 1).val < 128 := (i 1).isLt
  have hlt : (i 0).val / 8000 < grid0.N := by rw [hN]; omega
  obtain ⟨-, -, -, -, -, e30, e31⟩ := edge_index_facts ⟨(i 0).val / 8000, hlt⟩
  refine ⟨⟨(i 0).val / 8000, hlt⟩, flush0_3 _, ?_⟩
  rw [edge_mem_block]
  intro a
  match a with
  | ⟨0, _⟩ =>
    show win0_3.index ⟨(i 0).val / 8000, hlt⟩ (0 : Fin 2) * 8000 ≤ (i 0).val
      ∧ (i 0).val < win0_3.index ⟨(i 0).val / 8000, hlt⟩ (0 : Fin 2) * 8000 + 8000
    rw [e30]; show (i 0).val / 8000 * 8000 ≤ (i 0).val ∧ (i 0).val < (i 0).val / 8000 * 8000 + 8000; omega
  | ⟨1, _⟩ =>
    show win0_3.index ⟨(i 0).val / 8000, hlt⟩ (1 : Fin 2) * 128 ≤ (i 1).val
      ∧ (i 1).val < win0_3.index ⟨(i 0).val / 8000, hlt⟩ (1 : Fin 2) * 128 + 128
    rw [e31]; omega

/-- The result array after the region: the linear map applied to every row of the edge array as the region finds
    it. -/
theorem edge_array (c : Dev nD) :
    (dat0 (F := Ideal) V c).arrAt 3 cfg0.N
      = Cert.Gin.edgeLin (V c main_arg1) (V c main_arg4) (V c main_arg5) :=
  (dat0 (F := Ideal) V c).arrAt_eq_of_cover 3
    (Cert.Gin.edgeLin (V c main_arg1) (V c main_arg4) (V c main_arg5))
    (fun t _ => edge_flushed V c t) edge_cover

end Cert.Gin.Tiled

end
-- ==== Proof.NodeArray.lean ====
/-
  From blocks to the array, for the node stage.

  The node arrays have 40000 rows of 128 entries and are worked through in 8 blocks of 5000 consecutive rows: the
  point numbered t reads rows 5000 t, ..., 5000 t + 4999 of the node array and of the array of summed messages,
  together with the whole of the two weight matrices, the two bias vectors and the scale and shift of the
  normalisation, and writes the same rows of the result. The stage works row by row: entry (p, c) of what a point
  writes depends on row p of its two row blocks only, and is the new vector of that node at c. That row-by-row
  reading of the stage is taken here as a hypothesis on the stage's arithmetic over blocks; what is proved is the
  passage from it to the whole array. Row p of the block of point t is row 5000 t + p of the arrays, so what point t
  writes is block t of the row-by-row map of the whole arrays; row r of the result lies in the block of point
  r / 5000, so the 8 blocks cover the result, which ends as the row-by-row map of the whole arrays.
-/
import proofs.«165945_j53601191854192_2_alg».proof.Proof.Gen.KernelIdeal.Frame
import proofs.«165945_j53601191854192_2_alg».proof.Proof.RowSpec
import Idealize.ShloMosaic.Lib.Pipeline.Value

noncomputable section

namespace Cert.Gin.Tiled

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- The row-by-row reading of the node stage on blocks: entry (p, c) of what the stage leaves in its output block is
    the new vector, at c, of the node whose old vector is row p of the first block and whose summed messages are
    row p of the second. -/
abbrev NodeBlockReads : Prop :=
  ∀ (x0 x1 : Vec Ideal S5000x128 .f32) (x2 : Vec Ideal S128x256 .f32) (x3 : Vec Ideal S256 .f32)
    (x4 : Vec Ideal S256x128 .f32) (x5 x6 x7 : Vec Ideal S128 .f32) (p : Fin 5000) (c : Fin 128),
    out1_8 (F := Ideal) x0 x1 x2 x3 x4 x5 x6 x7 (ix2 p c)
      = Cert.Gin.nodeRow (fun k => x0 (ix2 p k)) (fun k => x1 (ix2 p k)) x2 x3 x4 x5 x6 x7 c

/-- One entry of an output block against the whole arrays: if rows p of the two row blocks are rows r of the node
    array and of the summed messages, and the other six blocks are the whole parameter arrays, then entry (p, q) of
    the output block is entry (r, q) of the row-by-row map of the whole arrays. -/
theorem node_entry (hblock : NodeBlockReads)
    (nh aggr : FVec Ideal ⟨2, ![40000, 128]⟩ .f32) (w1 : FVec Ideal ⟨2, ![128, 256]⟩ .f32)
    (b1 : FVec Ideal ⟨1, ![256]⟩ .f32) (w2 : FVec Ideal ⟨2, ![256, 128]⟩ .f32) (b2 g bb : FVec Ideal ⟨1, ![128]⟩ .f32)
    (x0 x1 : Vec Ideal S5000x128 .f32) (x2 : Vec Ideal S128x256 .f32) (x3 : Vec Ideal S256 .f32)
    (x4 : Vec Ideal S256x128 .f32) (x5 x6 x7 : Vec Ideal S128 .f32)
    (p : Fin 5000) (q : Fin 128) (r : Fin 40000)
    (h0 : ∀ k : Fin 128, x0 (ix2 p k) = nh (ix2 r k)) (h1 : ∀ k : Fin 128, x1 (ix2 p k) = aggr (ix2 r k))
    (h2 : x2 = w1) (h3 : x3 = b1) (h4 : x4 = w2) (h5 : x5 = b2) (h6 : x6 = g) (h7 : x7 = bb) :
    out1_8 (F := Ideal) x0 x1 x2 x3 x4 x5 x6 x7 (ix2 p q) = Cert.Gin.nodeOut nh aggr w1 b1 w2 b2 g bb (ix2 r q) := by
  subst h2 h3 h4 h5 h6 h7
  rw [hblock]
  show Cert.Gin.nodeRow _ _ x2 x3 x4 x5 x6 x7 q
    = Cert.Gin.nodeRow (fun k => nh (ix2 r k)) (fun k => aggr (ix2 r k)) x2 x3 x4 x5 x6 x7 q
  rw [show (fun k => x0 (ix2 p k)) = (fun k => nh (ix2 r k)) from funext h0,
    show (fun k => x1 (ix2 p k)) = (fun k => aggr (ix2 r k)) from funext h1]

/-- The block indices of the nine windows at point t: the two row arrays' and the result's blocks are numbered by
    the point along the rows, and each parameter array is one block. -/
theorem node_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 1) = 0
    ∧ win1_7.index t (0 : Fin 1) = 0
    ∧ win1_8.index t (0 : Fin 2) = t.val ∧ win1_8.index t (1 : Fin 2) = 0 :=
  (by decide +kernel : ∀ t : Fin grid1.N, _)

/-- What point t writes back is block t of the row-by-row map of the arrays as the region finds them. -/
theorem node_flushed (hblock : NodeBlockReads)
    (V : (c : Dev nD) → (b : Ref sig .tc) → Buf (Elt Ideal) ((c : Thread nD τ).loc b)) (c : Dev nD) (t : Fin cfg1.N) :
    (dat1 (F := Ideal) V c).flushed 8 t
      = ((cfg1.win 8).blk t).view.read (Elt Ideal)
          (Cert.Gin.nodeOut (V c main_arg0) (V c main_v16) (V c main_arg6) (V c main_arg7) (V c main_arg8)
            (V c main_arg9) (V c main_arg10) (V c main_arg11)) := by
  show (cfg1.win 8).cut (grid1.coords t) ((dat1 V c).after 8 t) = _
  rw [after1_8]
  obtain ⟨e00, e01, e10, e11, e20, e21, e30, e40, e41, e50, e60, e70, e80, e81⟩ := node_index_facts t
  have ht : t.val < 8 := Nat.lt_of_lt_of_eq t.isLt N_1
  funext j
  obtain ⟨p, q, rfl⟩ : ∃ (p : Fin 5000) (q : Fin 128), j = ix2 p q := ⟨j 0, j 1, eq_ix2 j⟩
  have hr : t.val * 5000 + p.val < 40000 := by have := p.isLt; omega
  show out1_8 (iblk1 V c 0 t) (iblk1 V c 1 t) (iblk1 V c 2 t) (iblk1 V c 3 t) (iblk1 V c 4 t) (iblk1 V c 5 t)
      (iblk1 V c 6 t) (iblk1 V c 7 t) (ix2 p q)
    = Cert.Gin.nodeOut (V c main_arg0) (V c main_v16) (V c main_arg6) (V c main_arg7) (V c main_arg8)
        (V c main_arg9) (V c main_arg10) (V c main_arg11) (((cfg1.win 8).blk t).view.emb (ix2 p q))
  have hemb : ((cfg1.win 8).blk t).view.emb (ix2 p q) = ix2 (⟨t.val * 5000 + p.val, hr⟩ : Fin 40000) q := by
    funext a; apply Fin.ext
    match a with
    | ⟨0, _⟩ => show win1_8.index t (0 : Fin 2) * 5000 + 1 * p.val = t.val * 5000 + p.val; rw [e80]; omega
    | ⟨1, _⟩ => show win1_8.index t (1 : Fin 2) * 128 + 1 * q.val = q.val; rw [e81]; omega
  rw [hemb]
  have h0 : ∀ k : Fin 128, (iblk1 V c 0 t : Vec Ideal S5000x128 .f32) (ix2 p k)
      = (V c main_arg0 : FVec Ideal ⟨2, ![40000, 128]⟩ .f32) (ix2 (⟨t.val * 5000 + p.val, hr⟩ : Fin 40000) k) := by
    intro k
    show V c main_arg0 (((cfg1.win 0).blk t).view.emb (ix2 p k)) = V c main_arg0 _
    refine congrArg (V c main_arg0) (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  have h1 : ∀ k : Fin 128, (iblk1 V c 1 t : Vec Ideal S5000x128 .f32) (ix2 p k)
      = (V c main_v16 : FVec Ideal ⟨2, ![40000, 128]⟩ .f32) (ix2 (⟨t.val * 5000 + p.val, hr⟩ : Fin 40000) k) := by
    intro k
    show V c main_v16 (((cfg1.win 1).blk t).view.emb (ix2 p k)) = V c main_v16 _
    refine congrArg (V c main_v16) (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 128 + 1 * k.val = k.val; rw [e11]; omega
  have h2 : (iblk1 V c 2 t : Vec Ideal S128x256 .f32) = (V c main_arg6 : FVec Ideal ⟨2, ![128, 256]⟩ .f32) := by
    funext y
    show V c main_arg6 (((cfg1.win 2).blk t).view.emb y) = V c main_arg6 y
    refine congrArg (V c main_arg6) (funext fun a => Fin.ext ?_)
    match a with
    | ⟨0, _⟩ => show win1_2.index t (0 : Fin 2) * 128 + 1 * (y 0).val = (y 0).val; rw [e20]; omega
    | ⟨1, _⟩ => show win1_2.index t (1 : Fin 2) * 256 + 1 * (y 1).val = (y 1).val; rw [e21]; omega
  have h3 : (iblk1 V c 3 t : Vec Ideal S256 .f32) = (V c main_arg7 : FVec Ideal ⟨1, ![256]⟩ .f32) := by
    funext y
    show V c main_arg7 (((cfg1.win 3).blk t).view.emb y) = V c main_arg7 y
    refine congrArg (V c main_arg7) (funext fun a => Fin.ext ?_)
    match a with
    | ⟨0, _⟩ => show win1_3.index t (0 : Fin 1) * 256 + 1 * (y 0).val = (y 0).val; rw [e30]; omega
  have h4 : (iblk1 V c 4 t : Vec Ideal S256x128 .f32) = (V c main_arg8 : FVec Ideal ⟨2, ![256, 128]⟩ .f32) := by
    funext y
    show V c main_arg8 (((cfg1.win 4).blk t).view.emb y) = V c main_arg8 y
    refine congrArg (V c main_arg8) (funext fun a => Fin.ext ?_)
    match a with
    | ⟨0, _⟩ => show win1_4.index t (0 : Fin 2) * 256 + 1 * (y 0).val = (y 0).val; rw [e40]; omega
    | ⟨1, _⟩ => show win1_4.index t (1 : Fin 2) * 128 + 1 * (y 1).val = (y 1).val; rw [e41]; omega
  have h5 : (iblk1 V c 5 t : Vec Ideal S128 .f32) = (V c main_arg9 : FVec Ideal ⟨1, ![128]⟩ .f32) := by
    funext y
    show V c main_arg9 (((cfg1.win 5).blk t).view.emb y) = V c main_arg9 y
    refine congrArg (V c main_arg9) (funext fun a => Fin.ext ?_)
    match a with
    | ⟨0, _⟩ => show win1_5.index t (0 : Fin 1) * 128 + 1 * (y 0).val = (y 0).val; rw [e50]; omega
  have h6 : (iblk1 V c 6 t : Vec Ideal S128 .f32) = (V c main_arg10 : FVec Ideal ⟨1, ![128]⟩ .f32) := by
    funext y
    show V c main_arg10 (((cfg1.win 6).blk t).view.emb y) = V c main_arg10 y
    refine congrArg (V c main_arg10) (funext fun a => Fin.ext ?_)
    match a with
    | ⟨0, _⟩ => show win1_6.index t (0 : Fin 1) * 128 + 1 * (y 0).val = (y 0).val; rw [e60]; omega
  have h7 : (iblk1 V c 7 t : Vec Ideal S128 .f32) = (V c main_arg11 : FVec Ideal ⟨1, ![128]⟩ .f32) := by
    funext y
    show V c main_arg11 (((cfg1.win 7).blk t).view.emb y) = V c main_arg11 y
    refine congrArg (V c main_arg11) (funext fun a => Fin.ext ?_)
    match a with
    | ⟨0, _⟩ => show win1_7.index t (0 : Fin 1) * 128 + 1 * (y 0).val = (y 0).val; rw [e70]; omega
  exact node_entry hblock (V c main_arg0) (V c main_v16) (V c main_arg6) (V c main_arg7) (V c main_arg8)
    (V c main_arg9) (V c main_arg10) (V c main_arg11)
    (iblk1 V c 0 t) (iblk1 V c 1 t) (iblk1 V c 2 t) (iblk1 V c 3 t) (iblk1 V c 4 t) (iblk1 V c 5 t) (iblk1 V c 6 t)
    (iblk1 V c 7 t) p q ⟨t.val * 5000 + p.val, hr⟩ h0 h1 h2 h3 h4 h5 h6 h7

/-- An index of the result array is in point t's block iff each coordinate is in the block's range on its axis. -/
theorem node_mem_block (t : Fin cfg1.N) (i : S40000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v17).slice (win1_8.rect t)).set ↔ _
  rw [View.set_slice_whole, Rect.mem_set_unit]
  exact Iff.rfl

/-- Every index of the result array is in the block of the point numbered by its row divided by 5000. -/
theorem node_cover (i : S40000x128.Idx) :
    ∃ t : Fin cfg1.N, (cfg1.win 8).flush t = true ∧ i ∈ ((cfg1.win 8).blk t).view.set := by
  have hN : grid1.N = 8 := N_1
  have hi0 : (i 0).val < 40000 := (i 0).isLt
  have hi1 : (i 1).val < 128 := (i 1).isLt
  have hlt : (i 0).val / 5000 < grid1.N := by rw [hN]; omega
  obtain ⟨-, -, -, -, -, -, -, -, -, -, -, -, e80, e81⟩ := node_index_facts ⟨(i 0).val / 5000, hlt⟩
  refine ⟨⟨(i 0).val / 5000, hlt⟩, flush1_8 _, ?_⟩
  rw [node_mem_block]
  intro a
  match a with
  | ⟨0, _⟩ =>
    show win1_8.index ⟨(i 0).val / 5000, hlt⟩ (0 : Fin 2) * 5000 ≤ (i 0).val
      ∧ (i 0).val < win1_8.index ⟨(i 0).val / 5000, hlt⟩ (0 : Fin 2) * 5000 + 5000
    rw [e80]; show (i 0).val / 5000 * 5000 ≤ (i 0).val ∧ (i 0).val < (i 0).val / 5000 * 5000 + 5000; omega
  | ⟨1, _⟩ =>
    show win1_8.index ⟨(i 0).val / 5000, hlt⟩ (1 : Fin 2) * 128 ≤ (i 1).val
      ∧ (i 1).val < win1_8.index ⟨(i 0).val / 5000, hlt⟩ (1 : Fin 2) * 128 + 128
    rw [e81]; omega

/-- The result array after the region, given the row-by-row reading of the stage on blocks: the row-by-row map of
    the arrays as the region finds them. -/
theorem node_array_of
    (hblock : ∀ (x0 x1 : Vec Ideal S5000x128 .f32) (x2 : Vec Ideal S128x256 .f32) (x3 : Vec Ideal S256 .f32)
      (x4 : Vec Ideal S256x128 .f32) (x5 x6 x7 : Vec Ideal S128 .f32) (p : Fin 5000) (c : Fin 128),
      out1_8 (F := Ideal) x0 x1 x2 x3 x4 x5 x6 x7 (ix2 p c)
        = Cert.Gin.nodeRow (fun k => x0 (ix2 p k)) (fun k => x1 (ix2 p k)) x2 x3 x4 x5 x6 x7 c)
    (V : (c : Dev nD) → (b : Ref sig .tc) → Buf (Elt Ideal) ((c : Thread nD τ).loc b)) (c : Dev nD) :
    (dat1 (F := Ideal) V c).arrAt 8 cfg1.N
      = Cert.Gin.nodeOut (V c main_arg0) (V c main_v16) (V c main_arg6) (V c main_arg7) (V c main_arg8)
          (V c main_arg9) (V c main_arg10) (V c main_arg11) :=
  (dat1 (F := Ideal) V c).arrAt_eq_of_cover 8
    (Cert.Gin.nodeOut (V c main_arg0) (V c main_v16) (V c main_arg6) (V c main_arg7) (V c main_arg8)
      (V c main_arg9) (V c main_arg10) (V c main_arg11))
    (fun t _ => node_flushed hblock V c t) node_cover

end Cert.Gin.Tiled

end
-- ==== Proof.NodeHidden.lean ====
/-
  The hidden layer of the node map on a block of 5000 rows, read at one entry.

  The block program adds the message sums to the node rows, multiplies the 5000 x 128 result by the 128 x 256
  weight matrix starting from a zero block, adds the 256 biases to every row and takes the maximum with zero. A
  change of number format is the identity on extended reals, a product into the zero block is the plain finite sum
  over the shared axis, and a bias vector laid out as one row and repeated down the block reads its own entry in
  every row. So the entry in row p and column j is the entry j of the hidden layer of the one row p: no other row
  of the block enters.
-/
import proofs.«165945_j53601191854192_2_alg».proof.Proof.Gen.KernelIdeal.Skeleton
import proofs.«165945_j53601191854192_2_alg».proof.Proof.RowSpec
import proofs.«165945_j53601191854192_2_alg».proof.Proof.LibPlainMatmul
import Idealize.ShloMosaic.Lib.ValueLayout

noncomputable section

namespace Cert.Gin.Tiled

open Cert.KernelIdeal Cert.KernelIdeal.Gen Idealize.ShloMosaic Idealize.ShloMosaic.ValueIdx
open scoped BigOperators

/-- A vector of b entries laid out as a single row and then repeated to a rows reads, at (p, c), its entry c. -/
theorem rowBias_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The hidden layer as the block program computes it: the rectified affine image of the sum of the two operands. -/
def hiddenBlock (x0 x1 : Vec Ideal S5000x128 .f32) (x2 : Vec Ideal S128x256 .f32) (x3 : Vec Ideal S256 .f32) :
    FVec Ideal S5000x256 .f32 :=
  maximumf
    (addf
      (matmul dot_S5000x128_S128x256_S5000x256_1_0_0_1_n_n none
        (truncf .bf16 (addf x0 (shapeCast S5000x128 x1 shapeCasts_S5000x128_S5000x128) : FVec Ideal S5000x128 .f32) bitsLt_bf16_f32)
        (truncf .bf16 (x2 : FVec Ideal S128x256 .f32) bitsLt_bf16_f32)
        (constant S5000x256 .f32 0x00000000#32))
      (broadcastTo S5000x256 (shapeCast S1x256 x3 shapeCasts_S256_S1x256) broadcasts_S1x256_S5000x256))
    (broadcast S5000x256 (Scalar.ofBits .f32 0x00000000#32))

/-- Entry (p, j) of the block's hidden layer is entry j of the hidden layer of row p. -/
theorem hiddenBlock_apply (x0 x1 : Vec Ideal S5000x128 .f32) (x2 : Vec Ideal S128x256 .f32) (x3 : Vec Ideal S256 .f32)
    (p : Fin 5000) (j : Fin 256) :
    hiddenBlock x0 x1 x2 x3 (ix2 p j) = hiddenRow (fun k => x0 (ix2 p k) + x1 (ix2 p k)) x2 x3 j := by
  unfold hiddenBlock hiddenRow
  rw [maximumf_apply, addf_apply, broadcast_apply]
  refine congrArg₂ max (congrArg₂ (· + ·) ?_ ?_) rfl
  · refine (Cert.LibPlainMatmul.matmul_zero_plain _ _ _ p j).trans ?_
    refine Finset.sum_congr rfl fun k _ => ?_
    rw [truncf_apply, truncf_apply, addf_apply, shapeCast_self]
  · exact rowBias_apply x3 shapeCasts_S256_S1x256 broadcasts_S1x256_S5000x256 p j

end Cert.Gin.Tiled

end
-- ==== Proof.NodeMlp.lean ====
/-
  The second layer of the node map on a block of 5000 rows, read at one entry.

  The block of hidden values (5000 x 256) is multiplied by the 256 x 128 weight matrix starting from a zero block,
  and the 128 biases are added to every row. Read at row p and column c this is the finite sum over the 256 hidden
  entries of row p, each times its weight, plus bias c; with the hidden block of the first layer in place it is
  entry c of the two-layer map of the one row p.
-/
import proofs.«165945_j53601191854192_2_alg».proof.Proof.NodeHidden

noncomputable section

namespace Cert.Gin.Tiled

open Cert.KernelIdeal Cert.KernelIdeal.Gen Idealize.ShloMosaic Idealize.ShloMosaic.ValueIdx
open scoped BigOperators

/-- The second layer as the block program computes it, from any block of hidden values. -/
def mlpBlock (h : FVec Ideal S5000x256 .f32) (x4 : Vec Ideal S256x128 .f32) (x5 : Vec Ideal S128 .f32) :
    FVec Ideal S5000x128 .f32 :=
  addf
    (matmul dot_S5000x256_S256x128_S5000x128_1_0_0_1_n_n none
      (truncf .bf16 h bitsLt_bf16_f32)
      (truncf .bf16 (x4 : FVec Ideal S256x128 .f32) bitsLt_bf16_f32)
      (constant S5000x128 .f32 0x00000000#32))
    (broadcastTo S5000x128 (shapeCast S1x128 x5 shapeCasts_S128_S1x128) broadcasts_S1x128_S5000x128)

/-- Entry (p, c) of the second layer: row p of the hidden block against column c of the weights, plus bias c. -/
theorem mlpBlock_apply (h : FVec Ideal S5000x256 .f32) (x4 : Vec Ideal S256x128 .f32) (x5 : Vec Ideal S128 .f32)
    (p : Fin 5000) (c : Fin 128) :
    mlpBlock h x4 x5 (ix2 p c) = (∑ j : Fin 256, h (ix2 p j) * x4 (ix2 j c)) + x5 (ix1 c) := by
  unfold mlpBlock
  rw [addf_apply]
  refine congrArg₂ (· + ·) ?_ ?_
  · refine (Cert.LibPlainMatmul.matmul_zero_plain _ _ _ p c).trans ?_
    refine Finset.sum_congr rfl fun j _ => ?_
    rw [truncf_apply, truncf_apply]
  · exact rowBias_apply x5 shapeCasts_S128_S1x128 broadcasts_S1x128_S5000x128 p c

/-- Entry (p, c) of the two layers together is entry c of the two-layer map of row p of the summed operands. -/
theorem mlp_apply (x0 x1 : Vec Ideal S5000x128 .f32) (x2 : Vec Ideal S128x256 .f32) (x3 : Vec Ideal S256 .f32)
    (x4 : Vec Ideal S256x128 .f32) (x5 : Vec Ideal S128 .f32) (p : Fin 5000) (c : Fin 128) :
    mlpBlock (hiddenBlock x0 x1 x2 x3) x4 x5 (ix2 p c)
      = mlpRow (fun k => x0 (ix2 p k) + x1 (ix2 p k)) x2 x3 x4 x5 c := by
  rw [mlpBlock_apply]
  unfold mlpRow
  refine congrArg₂ (· + ·) (Finset.sum_congr rfl fun j _ => ?_) rfl
  rw [hiddenBlock_apply]

end Cert.Gin.Tiled

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.NodeStats.lean ====
/-
  The row statistics of the node map on a block of 5000 rows, read at one entry.

  From any block z of 5000 rows of 128 entries the block program takes, row by row: the sum of the row kept as a
  column and divided by the literal 128 (the mean); the block minus that column repeated along the rows (the centred
  block); the same mean of the squares of the centred block (the variance); and the centred block times the
  reciprocal root of the variance plus the literal epsilon, again as a column repeated along the rows. A sum along a
  row kept as a column reads, at row p, the finite sum of the 128 entries of row p, and a repeated column reads its
  entry p in every column. So every one of these blocks, read at (p, c), is the same expression in row p of z alone.
-/
import proofs.«165945_j53601191854192_2_alg».proof.Proof.Gen.KernelIdeal.Skeleton
import proofs.«165945_j53601191854192_2_alg».proof.Proof.RowSpec
import proofs.«165945_j53601191854192_2_alg».proof.Proof.LibKeepdims

noncomputable section

namespace Cert.Gin.Tiled

open Cert.KernelIdeal Cert.KernelIdeal.Gen Idealize.ShloMosaic Idealize.ShloMosaic.ValueIdx
open scoped BigOperators

/-- The means of the rows of a block, as a column: each row's sum divided by the literal 128. -/
def meanCol (z : FVec Ideal S5000x128 .f32) : FVec Ideal S5000x1 .f32 :=
  divf
    (shapeCast S5000x1
      (multiReduction (F := Ideal) .add [1] S5000 z 0x00000000#32 reduces_S5000x128_S5000 (.inl rfl) rfl)
      shapeCasts_S5000_S5000x1)
    (broadcast S5000x1 (Scalar.ofBits .f32 0x43000000#32))

/-- The column of means at row p is the mean of row p. -/
theorem meanCol_apply (z : FVec Ideal S5000x128 .f32) (p : Fin 5000) (u : Fin 1) :
    meanCol z (ix2 p u) = rowMean (fun c => z (ix2 p c)) := by
  unfold meanCol rowMean
  rw [divf_apply, broadcast_apply]
  refine congrArg₂ Ideal.div ?_ rfl
  exact (Cert.LibKeepdims.shapeCast_a_a1_apply _ shapeCasts_S5000_S5000x1 p u).trans
    (Cert.LibKeepdims.multiReduction_add_row z _ reduces_S5000x128_S5000 _ _ p)

/-- A block minus the column of its row means repeated along the rows. -/
def centredBlock (z : FVec Ideal S5000x128 .f32) : FVec Ideal S5000x128 .f32 :=
  subf z (broadcastTo S5000x128 (meanCol z) broadcasts_S5000x1_S5000x128)

/-- The centred block at (p, c) is the entry minus the mean of its row. -/
theorem centredBlock_apply (z : FVec Ideal S5000x128 .f32) (p : Fin 5000) (c : Fin 128) :
    centredBlock z (ix2 p c) = z (ix2 p c) - rowMean (fun c' => z (ix2 p c')) := by
  unfold centredBlock
  rw [subf_apply]
  refine congrArg₂ (· - ·) rfl ?_
  exact (Cert.LibKeepdims.broadcastTo_a1_ab_apply _ broadcasts_S5000x1_S5000x128 p c).trans (meanCol_apply z p 0)

/-- The centred block scaled, row by row, by the reciprocal root of the row's variance plus the literal epsilon. -/
def normBlock (z : FVec Ideal S5000x128 .f32) : FVec Ideal S5000x128 .f32 :=
  mulf (centredBlock z)
    (broadcastTo S5000x128
      (rsqrt (addf (meanCol (mulf (centredBlock z) (centredBlock z)))
        (broadcast S5000x1 (Scalar.ofBits .f32 0x3727C5AC#32))))
      broadcasts_S5000x1_S5000x128)

/-- The scaled block at (p, c), in terms of row p of the block alone. -/
theorem normBlock_apply (z : FVec Ideal S5000x128 .f32) (p : Fin 5000) (c : Fin 128) :
    normBlock z (ix2 p c)
      = (z (ix2 p c) - rowMean (fun c' => z (ix2 p c')))
          * Ideal.rsqrt (rowMean (fun c' => (z (ix2 p c') - rowMean (fun c'' => z (ix2 p c'')))
                                              * (z (ix2 p c') - rowMean (fun c'' => z (ix2 p c''))))
              + Ideal.ofBits .f32 0x3727C5AC#32) := by
  unfold normBlock
  rw [mulf_apply, centredBlock_apply]
  refine congrArg₂ (· * ·) rfl ?_
  refine (Cert.LibKeepdims.broadcastTo_a1_ab_apply _ broadcasts_S5000x1_S5000x128 p c).trans ?_
  show Ideal.rsqrt (meanCol (mulf (centredBlock z) (centredBlock z)) (ix2 p (0 : Fin 1)) + Ideal.ofBits .f32 0x3727C5AC#32) = _
  rw [meanCol_apply]
  refine congrArg (fun t => Ideal.rsqrt (rowMean t + Ideal.ofBits .f32 0x3727C5AC#32)) (funext fun c' => ?_)
  rw [mulf_apply, centredBlock_apply]

end Cert.Gin.Tiled

end
-- ==== Proof.NodeAffine.lean ====
/-
  The last steps of the node map on a block of 5000 rows, read at one entry.

  The scaled block is multiplied by the gain vector and the shift vector is added, both laid out as one row and
  repeated down the block, and the node rows themselves are added back. At (p, c) this is the scaled entry times
  gain c, plus shift c, plus the node's own entry.
-/
import proofs.«165945_j53601191854192_2_alg».proof.Proof.NodeHidden

noncomputable section

namespace Cert.Gin.Tiled

open Cert.KernelIdeal Cert.KernelIdeal.Gen Idealize.ShloMosaic Idealize.ShloMosaic.ValueIdx

/-- The affine map and the residual at (p, c). -/
theorem affineResidual_apply (v0 : Vec Ideal S5000x128 .f32) (v39 : FVec Ideal S5000x128 .f32)
    (v40 v44 : Vec Ideal S128 .f32) (p : Fin 5000) (c : Fin 128) :
    k1_pay1 (F := Ideal) v0 v39 v40 v44 (ix2 p c)
      = v39 (ix2 p c) * v40 (ix1 c) + v44 (ix1 c) + v0 (ix2 p c) := by
  unfold k1_pay1
  refine (addf_apply _ _ _).trans (congrArg₂ (· + ·) ?_ rfl)
  refine (addf_apply _ _ _).trans (congrArg₂ (· + ·) ?_ ?_)
  · refine (mulf_apply _ _ _).trans (congrArg₂ (· * ·) rfl ?_)
    exact rowBias_apply v40 shapeCasts_S128_S1x128 broadcasts_S1x128_S5000x128 p c
  · exact rowBias_apply v44 shapeCasts_S128_S1x128 broadcasts_S1x128_S5000x128 p c

end Cert.Gin.Tiled

end
-- ==== Proof.NodeBlock.lean ====
/-
  One block of the node map is the row map, entry by entry.

  The block program's one store writes the whole block, and each of its loads reads a whole operand, so the block it
  leaves is its arithmetic applied to the operands as they stand. That arithmetic is the chain hidden layer, second
  layer, row statistics, affine map and residual; each link read at (p, c) involves row p of the two row operands
  only, and the links compose to the row map of the specification applied to row p.
-/
import proofs.«165945_j53601191854192_2_alg».proof.Proof.Gen.KernelIdeal.Frame
import proofs.«165945_j53601191854192_2_alg».proof.Proof.NodeMlp
import proofs.«165945_j53601191854192_2_alg».proof.Proof.NodeStats
import proofs.«165945_j53601191854192_2_alg».proof.Proof.NodeAffine

noncomputable section

namespace Cert.Gin.Tiled

open Cert.KernelIdeal Cert.KernelIdeal.Gen Idealize.ShloMosaic Idealize.ShloMosaic.ValueIdx

/-- The offsets of a whole-block access of rank 2 are zero. -/
theorem zeroOff2 : (![0, 0] : Fin 2 → Nat) = fun _ => 0 := funext fun a => by fin_cases a <;> rfl
/-- The offset of a whole-vector access is zero. -/
theorem zeroOff1 : (![0] : Fin 1 → Nat) = fun _ => 0 := funext fun a => by fin_cases a; rfl

/-- The block program's arithmetic before the affine map is the three links in a row. -/
theorem pay2_eq (x0 x1 : Vec Ideal S5000x128 .f32) (x2 : Vec Ideal S128x256 .f32) (x3 : Vec Ideal S256 .f32)
    (x4 : Vec Ideal S256x128 .f32) (x5 : Vec Ideal S128 .f32) :
    k1_pay2 (F := Ideal) x0 x1 x2 x3 x4 x5 = normBlock (mlpBlock (hiddenBlock x0 x1 x2 x3) x4 x5) := rfl

/-- Entry (p, c) of the block the program leaves is entry c of the row map applied to row p of the operands. -/
theorem node_block (x0 x1 : Vec Ideal S5000x128 .f32) (x2 : Vec Ideal S128x256 .f32) (x3 : Vec Ideal S256 .f32) (x4 : Vec Ideal S256x128 .f32) (x5 x6 x7 : Vec Ideal S128 .f32) (p : Fin 5000) (c : Fin 128) :
    out1_8 (F := Ideal) x0 x1 x2 x3 x4 x5 x6 x7 (ix2 p c) = Cert.Gin.nodeRow (fun k => x0 (ix2 p k)) (fun k => x1 (ix2 p k)) x2 x3 x4 x5 x6 x7 c := by
  unfold out1_8
  rw [View.canon_unit_zero zeroOff2]
  simp only [View.ld_unit_zero (S := S5000x128) zeroOff2, View.ld_unit_zero (S := S128x256) zeroOff2,
    View.ld_unit_zero (S := S256x128) zeroOff2, View.ld_unit_zero (S := S256) zeroOff1,
    View.ld_unit_zero (S := S128) zeroOff1]
  rw [affineResidual_apply, pay2_eq, normBlock_apply]
  simp only [mlp_apply]
  rfl

end Cert.Gin.Tiled

end
-- ==== Proof.RefMessages.lean ====
/-
  The reference's message stage is the specification's.

  The whole-array program computes the edges' transformed vectors by one matrix product and a broadcast bias, then
  runs the chain of index operations (split the index pair, wrap negative sources, gather, add, rectify, sum into
  the destinations). Entry by entry the first part is the specification's linear map of an edge's row; the chain is,
  operation for operation, the one the specification names, applied to the same operands, so nothing in it is
  evaluated: the two terms are the same term.
-/
import proofs.«165945_j53601191854192_2_alg».proof.Proof.Gen.ReferenceIdeal.Read
import proofs.«165945_j53601191854192_2_alg».proof.Proof.Gen.KernelIdeal
import proofs.«165945_j53601191854192_2_alg».proof.Proof.Messages

noncomputable section

namespace Cert.Gin.Plain

open Idealize.ShloMosaic Idealize.ShloMosaic.ValueIdx Cert.ReferenceIdeal Cert.ReferenceIdeal.Read
open scoped BigOperators

/-- The reference's edge stage: the product of the edge vectors with the weight matrix plus the broadcast bias is,
    entry by entry, the specification's linear map of the edge's row. -/
theorem edge_eq (x1 : (⟨S640000x128, .f32⟩ : BufTy).Contents (Elt Ideal)) (x4 : (⟨S128x128, .f32⟩ : BufTy).Contents (Elt Ideal))
    (x5 : (⟨S128, .f32⟩ : BufTy).Contents (Elt Ideal)) :
    val_main_v7 (F := Ideal) x1 x4 x5 = Cert.Gin.edgeLin x1 x4 x5 := by
  funext i
  obtain ⟨r, c, rfl⟩ : ∃ (r : Fin 640000) (c : Fin 128), i = ix2 r c := ⟨i 0, i 1, eq_ix2 i⟩
  rw [val_main_v7_apply, val_main_v4_apply, val_main_v6_apply, val_main_v5_apply]
  have e1 : ∀ k : Fin 128, lidx_main_v4 (ix2 r c) k = ix2 r k := fun k =>
    funext fun a => Fin.ext (by match a with | ⟨0, _⟩ => rfl | ⟨1, _⟩ => rfl)
  have e2 : ∀ k : Fin 128, ridx_main_v4 (ix2 r c) k = ix2 k c := fun k =>
    funext fun a => Fin.ext (by match a with | ⟨0, _⟩ => rfl | ⟨1, _⟩ => rfl)
  have e3 : idx_main_v5 (idx_main_v6 (ix2 r c)) = ix1 c :=
    funext fun a => Fin.ext (by match a with | ⟨0, _⟩ => rfl)
  simp only [e1, e2, e3, Ideal.addf_def]
  rfl

/-- The reference's sums of incoming messages are the specification's chain applied to the node array, the index
    pair and the specification's transformed edge vectors. After the edge stage has been replaced by the
    specification's, both sides are the same operations on the same operands; the two programs' shape names and
    descriptor records carry literally equal data. -/
theorem messages_eq (x0 : (⟨S40000x128, .f32⟩ : BufTy).Contents (Elt Ideal)) (x1 : (⟨S640000x128, .f32⟩ : BufTy).Contents (Elt Ideal))
    (x2 : (⟨S2x640000, .i32⟩ : BufTy).Contents (Elt Ideal)) (x4 : (⟨S128x128, .f32⟩ : BufTy).Contents (Elt Ideal))
    (x5 : (⟨S128, .f32⟩ : BufTy).Contents (Elt Ideal)) :
    val_main_v19 (F := Ideal) x0 x1 x2 x4 x5 = Cert.Gin.messages (F := Ideal) x0 x2 (Cert.Gin.edgeLin x1 x4 x5) := by
  unfold val_main_v19 val_main_v16 val_main_v15
  rw [edge_eq]
  generalize Cert.Gin.edgeLin x1 x4 x5 = e
  unfold val_main_v18 val_main_v17 val_main_v14 val_main_v13 val_main_v12 val_main_v11 val_main_v10 val_main_v9 val_main_v8
    val_main_v3 val_main_v2 val_main_v1 val_main_v0 val_main_c val_main_c_0 val_main_cst val_main_call0_v0 val_main_call0_cst
  unfold Cert.Gin.messages Cert.Gin.gatherSum Cert.Gin.srcIdx Cert.Gin.dstIdx
  rfl

end Cert.Gin.Plain

end
-- ==== Proof.RefNode.lean ====
/-
  The reference's node stage, one row at a time.

  After the message sums have been added to the node array, the whole-array program applies two matrix products
  with broadcast biases and a rectifier between them, then normalises every row: it subtracts the row's mean,
  multiplies by the reciprocal root of the row's variance plus ε, applies the affine map and adds the node's old
  vector back. Every one of these operations acts on a row by itself: a matrix product reads row `r` of its left
  operand, a sum along the second axis reads row `r`, a column broadcast hands row `r` its own scalar. So entry
  `(r, c)` of the result is the specification's `nodeRow` of row `r` of the node array and row `r` of the message
  sums. The message sums themselves are left as the reference's own term here; nothing below looks inside them.

  The two sums along a row start from the zero word, which is the real number zero and drops out; every other
  literal stands as the same binary word on both sides.
-/
import proofs.«165945_j53601191854192_2_alg».proof.Proof.Gen.ReferenceIdeal.Read
import proofs.«165945_j53601191854192_2_alg».proof.Proof.RowSpec

noncomputable section

namespace Cert.Gin.Plain

open Idealize.ShloMosaic Idealize.ShloMosaic.ValueIdx Cert.ReferenceIdeal Cert.ReferenceIdeal.Read
open scoped BigOperators

/-- Row `r` of the node array plus row `r` of the reference's message sums: what the first matrix product reads. -/
abbrev hrow (x0 : (⟨S40000x128, .f32⟩ : BufTy).Contents (Elt Ideal)) (x1 : (⟨S640000x128, .f32⟩ : BufTy).Contents (Elt Ideal))
    (x2 : (⟨S2x640000, .i32⟩ : BufTy).Contents (Elt Ideal)) (x4 : (⟨S128x128, .f32⟩ : BufTy).Contents (Elt Ideal))
    (x5 : (⟨S128, .f32⟩ : BufTy).Contents (Elt Ideal))
    (r : Fin 40000) (k : Fin 128) : EReal :=
  x0 (ix2 r k) + val_main_v19 (F := Ideal) x0 x1 x2 x4 x5 (ix2 r k)

/-- The rectified first layer at `(r, j)`: a sum over the 128 entries of row `r`, the bias of column `j`, and the
    maximum with the zero word. -/
theorem hidden_eq (x0 : (⟨S40000x128, .f32⟩ : BufTy).Contents (Elt Ideal)) (x1 : (⟨S640000x128, .f32⟩ : BufTy).Contents (Elt Ideal))
    (x2 : (⟨S2x640000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S256, .f32⟩ : BufTy).Contents (Elt Ideal))
    (r : Fin 40000) (j : Fin 256) :
    val_main_v25 (F := Ideal) x0 x1 x2 x4 x5 x6 x7 (ix2 r j)
      = Cert.Gin.hiddenRow (hrow x0 x1 x2 x4 x5 r) x6 x7 j := by
  rw [val_main_v25_apply, val_main_v24_apply, val_main_v21_apply, val_main_v23_apply, val_main_v22_apply,
    val_main_call1_v0_apply, val_main_call1_cst_apply]
  have e1 : ∀ k : Fin 128, lidx_main_v21 (ix2 r j) k = ix2 r k := fun k =>
    funext fun a => Fin.ext (by match a with | ⟨0, _⟩ => rfl | ⟨1, _⟩ => rfl)
  have e2 : ∀ k : Fin 128, ridx_main_v21 (ix2 r j) k = ix2 k j := fun k =>
    funext fun a => Fin.ext (by match a with | ⟨0, _⟩ => rfl | ⟨1, _⟩ => rfl)
  have e3 : idx_main_v22 (idx_main_v23 (ix2 r j)) = ix1 j :=
    funext fun a => Fin.ext (by match a with | ⟨0, _⟩ => rfl)
  simp only [e1, e2, e3, val_main_v20_apply, Ideal.addf_def, Ideal.maximumf_def, Ideal.ofBits_def]
  rfl

/-- The second layer at `(r, c)`: a sum over the 256 hidden entries of row `r` plus the bias of column `c`. -/
theorem z_eq (x0 : (⟨S40000x128, .f32⟩ : BufTy).Contents (Elt Ideal)) (x1 : (⟨S640000x128, .f32⟩ : BufTy).Contents (Elt Ideal))
    (x2 : (⟨S2x640000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S256, .f32⟩ : BufTy).Contents (Elt Ideal)) (x8 : (⟨S256x128, .f32⟩ : BufTy).Contents (Elt Ideal)) (x9 : (⟨S128, .f32⟩ : BufTy).Contents (Elt Ideal))
    (r : Fin 40000) (c : Fin 128) :
    val_main_v29 (F := Ideal) x0 x1 x2 x4 x5 x6 x7 x8 x9 (ix2 r c)
      = Cert.Gin.mlpRow (hrow x0 x1 x2 x4 x5 r) x6 x7 x8 x9 c := by
  rw [val_main_v29_apply, val_main_v26_apply, val_main_v28_apply, val_main_v27_apply]
  have e1 : ∀ k : Fin 256, lidx_main_v26 (ix2 r c) k = ix2 r k := fun k =>
    funext fun a => Fin.ext (by match a with | ⟨0, _⟩ => rfl | ⟨1, _⟩ => rfl)
  have e2 : ∀ k : Fin 256, ridx_main_v26 (ix2 r c) k = ix2 k c := fun k =>
    funext fun a => Fin.ext (by match a with | ⟨0, _⟩ => rfl | ⟨1, _⟩ => rfl)
  have e3 : idx_main_v27 (idx_main_v28 (ix2 r c)) = ix1 c :=
    funext fun a => Fin.ext (by match a with | ⟨0, _⟩ => rfl)
  simp only [e1, e2, e3, hidden_eq, Ideal.addf_def]
  rfl

/-- The reference's row of second-layer outputs, as a function of the column. -/
abbrev zrow (x0 : (⟨S40000x128, .f32⟩ : BufTy).Contents (Elt Ideal)) (x1 : (⟨S640000x128, .f32⟩ : BufTy).Contents (Elt Ideal))
    (x2 : (⟨S2x640000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S256, .f32⟩ : BufTy).Contents (Elt Ideal)) (x8 : (⟨S256x128, .f32⟩ : BufTy).Contents (Elt Ideal)) (x9 : (⟨S128, .f32⟩ : BufTy).Contents (Elt Ideal))
    (r : Fin 40000) (c : Fin 128) : EReal :=
  val_main_v29 (F := Ideal) x0 x1 x2 x4 x5 x6 x7 x8 x9 (ix2 r c)

/-- The column of row means: the sum of row `r` from the zero word, divided by the literal 128. -/
theorem mean_eq (x0 : (⟨S40000x128, .f32⟩ : BufTy).Contents (Elt Ideal)) (x1 : (⟨S640000x128, .f32⟩ : BufTy).Contents (Elt Ideal))
    (x2 : (⟨S2x640000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S256, .f32⟩ : BufTy).Contents (Elt Ideal)) (x8 : (⟨S256x128, .f32⟩ : BufTy).Contents (Elt Ideal)) (x9 : (⟨S128, .f32⟩ : BufTy).Contents (Elt Ideal))
    (r : Fin 40000) (u : Fin 1) :
    val_main_v33 (F := Ideal) x0 x1 x2 x4 x5 x6 x7 x8 x9 (ix2 r u)
      = Cert.Gin.rowMean (zrow x0 x1 x2 x4 x5 x6 x7 x8 x9 r) := by
  rw [val_main_v33_apply, val_main_v31_apply, val_main_v30_apply, val_main_v32_apply, val_main_cst_2_apply,
    val_main_cst_1_apply]
  have e1 : ∀ k : Fin 128, idx_main_v30 (idx_main_v31 (ix2 r u)) k = ix2 r k := fun k =>
    funext fun a => Fin.ext (by match a with | ⟨0, _⟩ => rfl | ⟨1, _⟩ => rfl)
  simp only [e1, Ideal.hostDivf_def, Ideal.ofBits_def, Ideal.ofBits_zero_f32, zero_add]
  rfl

/-- The column of row variances: the mean of the squared distances of row `r`'s entries from the row's mean. -/
theorem var_eq (x0 : (⟨S40000x128, .f32⟩ : BufTy).Contents (Elt Ideal)) (x1 : (⟨S640000x128, .f32⟩ : BufTy).Contents (Elt Ideal))
    (x2 : (⟨S2x640000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S256, .f32⟩ : BufTy).Contents (Elt Ideal)) (x8 : (⟨S256x128, .f32⟩ : BufTy).Contents (Elt Ideal)) (x9 : (⟨S128, .f32⟩ : BufTy).Contents (Elt Ideal))
    (r : Fin 40000) (u : Fin 1) :
    val_main_v40 (F := Ideal) x0 x1 x2 x4 x5 x6 x7 x8 x9 (ix2 r u)
      = Cert.Gin.rowMean (fun c => (zrow x0 x1 x2 x4 x5 x6 x7 x8 x9 r c - Cert.Gin.rowMean (zrow x0 x1 x2 x4 x5 x6 x7 x8 x9 r))
          * (zrow x0 x1 x2 x4 x5 x6 x7 x8 x9 r c - Cert.Gin.rowMean (zrow x0 x1 x2 x4 x5 x6 x7 x8 x9 r))) := by
  rw [val_main_v40_apply, val_main_v38_apply, val_main_v37_apply, val_main_v39_apply, val_main_cst_4_apply,
    val_main_cst_3_apply]
  have e1 : ∀ k : Fin 128, idx_main_v37 (idx_main_v38 (ix2 r u)) k = ix2 r k := fun k =>
    funext fun a => Fin.ext (by match a with | ⟨0, _⟩ => rfl | ⟨1, _⟩ => rfl)
  have e2 : ∀ k : Fin 128, idx_main_v34 (ix2 r k) = ix2 r (0 : Fin 1) := fun k =>
    funext fun a => Fin.ext (by match a with | ⟨0, _⟩ => rfl | ⟨1, _⟩ => rfl)
  simp only [e1, val_main_v36_apply, val_main_v35_apply, val_main_v34_apply, e2, mean_eq, Ideal.hostDivf_def,
    Ideal.mulf_def, Ideal.subf_def, Ideal.ofBits_def, Ideal.ofBits_zero_f32, zero_add]
  rfl

/-- The normalised row with its affine map: centre, scale by the reciprocal root of variance plus ε, times the gain
    of column `c`, plus the shift of column `c`. -/
theorem norm_eq (x0 : (⟨S40000x128, .f32⟩ : BufTy).Contents (Elt Ideal)) (x1 : (⟨S640000x128, .f32⟩ : BufTy).Contents (Elt Ideal))
    (x2 : (⟨S2x640000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S256, .f32⟩ : BufTy).Contents (Elt Ideal)) (x8 : (⟨S256x128, .f32⟩ : BufTy).Contents (Elt Ideal)) (x9 : (⟨S128, .f32⟩ : BufTy).Contents (Elt Ideal))
    (x10 x11 : (⟨S128, .f32⟩ : BufTy).Contents (Elt Ideal)) (r : Fin 40000) (c : Fin 128) :
    val_main_v53 (F := Ideal) x0 x1 x2 x4 x5 x6 x7 x8 x9 x10 x11 (ix2 r c)
      = Cert.Gin.normRow (zrow x0 x1 x2 x4 x5 x6 x7 x8 x9 r) x10 x11 c := by
  rw [val_main_v53_apply, val_main_v50_apply, val_main_v47_apply, val_main_v42_apply, val_main_v41_apply,
    val_main_v46_apply, val_main_v45_apply, val_main_v44_apply, val_main_v43_apply, val_main_cst_5_apply,
    val_main_v49_apply, val_main_v48_apply, val_main_v52_apply, val_main_v51_apply]
  have e1 : idx_main_v41 (ix2 r c) = ix2 r (0 : Fin 1) :=
    funext fun a => Fin.ext (by match a with | ⟨0, _⟩ => rfl | ⟨1, _⟩ => rfl)
  have e2 : idx_main_v46 (ix2 r c) = ix2 r (0 : Fin 1) :=
    funext fun a => Fin.ext (by match a with | ⟨0, _⟩ => rfl | ⟨1, _⟩ => rfl)
  have e3 : idx_main_v48 (idx_main_v49 (ix2 r c)) = ix1 c :=
    funext fun a => Fin.ext (by match a with | ⟨0, _⟩ => rfl)
  have e4 : idx_main_v51 (idx_main_v52 (ix2 r c)) = ix1 c :=
    funext fun a => Fin.ext (by match a with | ⟨0, _⟩ => rfl)
  rw [e1, e2, e3, e4, mean_eq, var_eq]
  simp only [Ideal.addf_def, Ideal.mulf_def, Ideal.subf_def, Ideal.hostUnary_rsqrt_def, Ideal.ofBits_def]
  rfl

/-- The reference's result at row `r`, column `c`: the specification's node map of row `r` of the node array and
    of the reference's message sums. -/
theorem node_eq (x0 : (⟨S40000x128, .f32⟩ : BufTy).Contents (Elt Ideal)) (x1 : (⟨S640000x128, .f32⟩ : BufTy).Contents (Elt Ideal))
    (x2 : (⟨S2x640000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S256, .f32⟩ : BufTy).Contents (Elt Ideal)) (x8 : (⟨S256x128, .f32⟩ : BufTy).Contents (Elt Ideal)) (x9 : (⟨S128, .f32⟩ : BufTy).Contents (Elt Ideal))
    (x10 x11 : (⟨S128, .f32⟩ : BufTy).Contents (Elt Ideal)) (r : Fin 40000) (c : Fin 128) :
    val_main_v54 (F := Ideal) x0 x1 x2 x4 x5 x6 x7 x8 x9 x10 x11 (ix2 r c)
      = Cert.Gin.nodeRow (fun k => x0 (ix2 r k)) (fun k => val_main_v19 (F := Ideal) x0 x1 x2 x4 x5 (ix2 r k))
          x6 x7 x8 x9 x10 x11 c := by
  rw [val_main_v54_apply, norm_eq, Ideal.addf_def]
  have hz : zrow x0 x1 x2 x4 x5 x6 x7 x8 x9 r = Cert.Gin.mlpRow (hrow x0 x1 x2 x4 x5 r) x6 x7 x8 x9 :=
    funext fun c' => z_eq x0 x1 x2 x4 x5 x6 x7 x8 x9 r c'
  rw [hz]
  rfl

end Cert.Gin.Plain

end
-- ==== Proof.RefWhole.lean ====
/-
  The reference computes the specification's layer.

  Two facts are put together. Row by row, the reference's result is the specification's node map of the node array
  and the reference's message sums; and those message sums are the specification's chain of index operations applied
  to the specification's transformed edge vectors. Substituting the second into the first gives `whole` of the
  eleven argument arrays, first as an identity between functions of eleven arrays, then at the launch contents of
  the reference's arguments.
-/
import proofs.«165945_j53601191854192_2_alg».proof.Proof.Gen.ReferenceIdeal.Read
import proofs.«165945_j53601191854192_2_alg».proof.Proof.Gen.KernelIdeal
import proofs.«165945_j53601191854192_2_alg».proof.Proof.Messages
import proofs.«165945_j53601191854192_2_alg».proof.Proof.RefMessages
import proofs.«165945_j53601191854192_2_alg».proof.Proof.RefNode

noncomputable section

namespace Cert.Gin.Plain

open Idealize.ShloMosaic Idealize.ShloMosaic.ValueIdx Idealize.SL.Sem Cert.ReferenceIdeal Cert.ReferenceIdeal.Read
open scoped BigOperators

/-- As functions of the eleven arrays, the reference's last stage is the specification's layer. -/
theorem plain_whole (x0 : (⟨S40000x128, .f32⟩ : BufTy).Contents (Elt Ideal)) (x1 : (⟨S640000x128, .f32⟩ : BufTy).Contents (Elt Ideal))
    (x2 : (⟨S2x640000, .i32⟩ : BufTy).Contents (Elt Ideal)) (x4 : (⟨S128x128, .f32⟩ : BufTy).Contents (Elt Ideal))
    (x5 : (⟨S128, .f32⟩ : BufTy).Contents (Elt Ideal)) (x6 : (⟨S128x256, .f32⟩ : BufTy).Contents (Elt Ideal))
    (x7 : (⟨S256, .f32⟩ : BufTy).Contents (Elt Ideal)) (x8 : (⟨S256x128, .f32⟩ : BufTy).Contents (Elt Ideal)) (x9 : (⟨S128, .f32⟩ : BufTy).Contents (Elt Ideal))
    (x10 x11 : (⟨S128, .f32⟩ : BufTy).Contents (Elt Ideal)) :
    val_main_v54 (F := Ideal) x0 x1 x2 x4 x5 x6 x7 x8 x9 x10 x11
      = Cert.Gin.whole x0 x1 x2 x4 x5 x6 x7 x8 x9 x10 x11 := by
  funext i
  obtain ⟨r, c, rfl⟩ : ∃ (r : Fin 40000) (c : Fin 128), i = ix2 r c := ⟨i 0, i 1, eq_ix2 i⟩
  rw [node_eq, messages_eq]
  unfold Cert.Gin.whole Cert.Gin.nodeOut
  rfl

/-- The reference's composed result term is the specification's layer of the launch contents of its arguments. -/
theorem ref_whole (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v54 (F := Ideal) m c
      = Cert.Gin.whole (m ((c.tc : Thread nD τ).loc main_arg0))
          (m ((c.tc : Thread nD τ).loc main_arg1))
          (m ((c.tc : Thread nD τ).loc main_arg2))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11)) := by
  rw [Cert.ReferenceIdeal.Read.val_main_v54_eq]
  exact plain_whole _ _ _ _ _ _ _ _ _ _ _

end Cert.Gin.Plain

end
-- ==== Proof.lean ====
/-
  A graph layer computed in tiles equals the same layer computed on whole arrays, over the extended reals.

  The layer: every edge's 128-vector goes through a linear map; for every edge the source node's vector is gathered,
  the edge's transformed vector is added, the sum is rectified, and the rectified messages are summed into their
  destination nodes; every node's vector x with its message sum a then goes through
      h = x + a,   z = max(h·W₁ + b₁, 0)·W₂ + b₂,   out = (z − mean z)·rsqrt(var z + ε)·g + β + x.
  The tiled program computes the edge map in 80 blocks of 8000 rows and the node map in 8 blocks of 5000 rows, with
  the gather, the rectifier and the summation as whole-array operations in between; the plain program does everything
  on whole arrays. Over the extended reals a change of float format is the identity and a matrix product or a row sum
  is a finite sum, so a block of the tiled result and the same rows of the plain result are the same row-wise function
  (RowSpec) of the same rows of the inputs; the operations in between are literally the same on both sides and are
  carried as one function (Messages). No law of arithmetic beyond reading a product and a row sum as finite sums is
  used, so the inputs' finiteness is never needed.

  * the tiled program's run, with its result array named as the last fold of its six segments: ResultRun;
  * that fold is `whole` of the arguments, once each region's output array is known to be the row map of the
    region's inputs: LastFold, from EdgeBlock / EdgeArray (edge region) and NodeBlock / NodeArray (node region);
  * the plain program's composed result term is `whole` of the arguments: RefWhole;
  * the three frames are the generated frame runs (the plain program's is its run with the result dropped), and the
    idealisation rewrote nothing, so there is nothing to preserve.
-/
import proofs.«165945_j53601191854192_2_alg».proof.Defs
import proofs.«165945_j53601191854192_2_alg».proof.Proof.Gen.Kernel
import proofs.«165945_j53601191854192_2_alg».proof.Proof.Gen.Kernel.Skeleton
import proofs.«165945_j53601191854192_2_alg».proof.Proof.Gen.Kernel.Launch
import proofs.«165945_j53601191854192_2_alg».proof.Proof.Gen.Kernel.Points
import proofs.«165945_j53601191854192_2_alg».proof.Proof.Gen.Kernel.Frame
import proofs.«165945_j53601191854192_2_alg».proof.Proof.Gen.KernelIdeal
import proofs.«165945_j53601191854192_2_alg».proof.Proof.Gen.KernelIdeal.Skeleton
import proofs.«165945_j53601191854192_2_alg».proof.Proof.Gen.KernelIdeal.Launch
import proofs.«165945_j53601191854192_2_alg».proof.Proof.Gen.KernelIdeal.Points
import proofs.«165945_j53601191854192_2_alg».proof.Proof.Gen.KernelIdeal.Frame
import proofs.«165945_j53601191854192_2_alg».proof.Proof.Gen.ReferenceIdeal
import proofs.«165945_j53601191854192_2_alg».proof.Proof.Gen.ReferenceIdeal.Run
import proofs.«165945_j53601191854192_2_alg».proof.Proof.Gen.ReferenceIdeal.Read
import proofs.«165945_j53601191854192_2_alg».proof.Proof.Gen.Pre_finite_inputs
import proofs.«165945_j53601191854192_2_alg».proof.Proof.ResultRun
import proofs.«165945_j53601191854192_2_alg».proof.Proof.LastFold
import proofs.«165945_j53601191854192_2_alg».proof.Proof.EdgeArray
import proofs.«165945_j53601191854192_2_alg».proof.Proof.NodeArray
import proofs.«165945_j53601191854192_2_alg».proof.Proof.NodeBlock
import proofs.«165945_j53601191854192_2_alg».proof.Proof.RefWhole
import Idealize.ShloMosaic.Adequacy
import Idealize.ShloMosaic.Init

set_option maxRecDepth 16384

noncomputable section

namespace Cert.Proof

open Idealize.ShloMosaic Idealize.ShloMosaic.TcCoe Idealize.SL.Sem

/-- The three programs run to the end without a fault and leave their arguments as launched. -/
theorem frame_tiled_bits : Cert.frame_Kernel := fun m ρ _ => Cert.Kernel.Gen.frame m ρ
theorem frame_tiled : Cert.frame_KernelIdeal := fun m ρ _ => Cert.KernelIdeal.Gen.frame m ρ
theorem frame_plain : Cert.frame_ReferenceIdeal := fun m ρ _ =>
  (θ_run Cert.ReferenceIdeal.defs _ _).mono (fun _ h c => (h c).2) (Cert.ReferenceIdeal.Value.run (F := Ideal) m ρ)

/-- From memories that agree on the arguments both programs end with their result array at `whole` of the
    arguments: the tiled one by its run and the reading of its last fold, the plain one by its run and the reading
    of its composed term, rewritten along the agreement. -/
theorem same_layer : Cert.algebraic_KernelIdeal_ReferenceIdeal := by
  intro m ρ m' ρ' _ hagree
  refine ⟨fun c => Cert.Gin.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Gin.Tiled.result_fold m ρ c Cert.Gin.Tiled.edge_array
        (Cert.Gin.Tiled.node_array_of Cert.Gin.Tiled.node_block)), (h c).2⟩)
      (Cert.Gin.Tiled.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.Gin.Plain.ref_whole m' c, (hagree c).1, (hagree c).2.1, (hagree c).2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_tiled_bits, frame_tiled, frame_plain, trivial, same_layer⟩

end Cert.Proof

end
